-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4096 : Shape := ⟨2, ![8, 4096]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  main_v18

def fn {F : FTy → Type} [FloatOps F] (main_arg0 : FVec F S8x4096x3 .f32) (main_arg1 : FVec F S8x4096x3 .f32) (main_arg2 : FVec F S8x4096 .f32) (main_arg3 : FVec F S8x4096 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_v13 main_v16
-- ==== Kernel.lean ====
abbrev S8x4096x3 : Shape := ⟨3, ![8, 4096, 3]⟩
abbrev S8x4096 : Shape := ⟨2, ![8, 4096]⟩
abbrev S8x3x4096 : Shape := ⟨3, ![8, 3, 4096]⟩
abbrev S8x1x4096 : Shape := ⟨3, ![8, 1, 4096]⟩
abbrev S1x1024x3 : Shape := ⟨3, ![1, 1024, 3]⟩
abbrev S1x3x2048 : Shape := ⟨3, ![1, 3, 2048]⟩
abbrev S1x1x4096 : Shape := ⟨3, ![1, 1, 4096]⟩
abbrev S1x1x1024 : Shape := ⟨3, ![1, 1, 1024]⟩
abbrev S1x4096 : Shape := ⟨2, ![1, 4096]⟩
abbrev S1x1024 : Shape := ⟨2, ![1, 1024]⟩
abbrev S1024x3 : Shape := ⟨2, ![1024, 3]⟩
abbrev S3x2048 : Shape := ⟨2, ![3, 2048]⟩
abbrev S1024x1 : Shape := ⟨2, ![1024, 1]⟩
abbrev S1x2048 : Shape := ⟨2, ![1, 2048]⟩
abbrev S1024x2048 : Shape := ⟨2, ![1024, 2048]⟩
abbrev S2048 : Shape := ⟨1, ![2048]⟩
abbrev S1024 : Shape := ⟨1, ![1024]⟩
abbrev S_ : Shape := ⟨0, ![]⟩

abbrev nBuf : Space → Nat
  | .hbm => 21
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S8x3x4096, .f32⟩
  | .hbm, ⟨5, _⟩ => ⟨S8x1x4096, .f32⟩
  | .hbm, ⟨6, _⟩ => ⟨S8x1x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1x4096, .f32⟩
  | .local _ .vmem, ⟨5, _⟩ => ⟨S1x1x4096, .f32⟩
  | .local _ .vmem, ⟨6, _⟩ => ⟨S1x1x1024, .f32⟩
  | .local _ .vmem, ⟨7, _⟩ => ⟨S1x1x1024, .f32⟩
  | .local _ .vmem, ⟨8, _⟩ => ⟨S1x4096, .f32⟩
  | .local _ .vmem, ⟨9, _⟩ => ⟨S1x1024, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_mult1 (i : grid0.Coords) : BitVec 32 :=
  let arg2 : BitVec 32 := BitVec.ofNat 32 (i 2).val
  let c2048_i32 : BitVec 32 := 2048#32
  let v54 : BitVec 32 := Scalar.muli arg2 c2048_i32
  v54
def k0_off1 (i : grid0.Coords) : Fin 2 → Nat :=
  let c0_13 : Index := 0#32
  let arg2 : BitVec 32 := BitVec.ofNat 32 (i 2).val
  let c2048_i32 : BitVec 32 := 2048#32
  let v54 : BitVec 32 := Scalar.muli arg2 c2048_i32
  let v55 : BitVec 32 := v54
  let v56 : Index := Scalar.indexCast v55
  ![0, v56.toNat]
def k0_cond4 (i : grid0.Coords) : BitVec 1 :=
  let arg1 : BitVec 32 := BitVec.ofNat 32 (i 1).val
  let c3_i32 : BitVec 32 := 3#32
  let v71 : BitVec 1 := Scalar.cmpi .eq arg1 c3_i32
  let arg2 : BitVec 32 := BitVec.ofNat 32 (i 2).val
  let c1_i32_20 : BitVec 32 := 1#32
  let v72 : BitVec 1 := Scalar.cmpi .eq arg2 c1_i32_20
  let v73 : BitVec 1 := Scalar.andi v71 v72
  let v74 : BitVec 32 := Scalar.extui v73
  let c0_i32_21 : BitVec 32 := 0#32
  let v75 : BitVec 1 := Scalar.cmpi .ne v74 c0_i32_21
  v75

def k0_cond3 (i : grid0.Coords) : BitVec 1 :=
  let arg2 : BitVec 32 := BitVec.ofNat 32 (i 2).val
  let c1_i32 : BitVec 32 := 1#32
  let v68 : BitVec 1 := Scalar.cmpi .eq arg2 c1_i32
  let v69 : BitVec 32 := Scalar.extui v68
  let c0_i32_19 : BitVec 32 := 0#32
  let v70 : BitVec 1 := Scalar.cmpi .ne v69 c0_i32_19
  v70

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S8x4096x3_S8x3x4096_0_2_1 : S8x4096x3.Transposes [0, 2, 1] S8x3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  broadcasts_S1024x1_S1024x2048 : S1024x1.Broadcasts S1024x2048
  broadcasts_S1x2048_S1024x2048 : S1x2048.Broadcasts S1024x2048
  reduces_S1024x2048_S2048 : S1024x2048.Reduces [0] S2048
  shapeCasts_S2048_S1x2048 : S2048.ShapeCasts S1x2048
  reduces_S1024x2048_S1024 : S1024x2048.Reduces [1] S1024
  shapeCasts_S1024_S1024x1 : S1024.ShapeCasts S1024x1
  transposes_S1024x1_p1_0_S1x1024 : S1024x1.Transposes [1, 0] S1x1024
  h_S1x2048 : 0 < S1x2048.numel
  shapeCasts_S1x2048_S1x2048 : S1x2048.ShapeCasts S1x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x1x4096_S8x4096 : S8x1x4096.ShapeCasts S8x4096
  reducesTo_S8x4096_S_d0_1 : S8x4096.ReducesTo [0, 1] S_
  h_S_ : 0 < S_.numel
  hrank0 : 0 < grid0.rank
  k0_mult1_dvd : ∀ i : grid0.Coords, 2048 ∣ (k0_mult1 i).toNat
  k0_off1_inb : ∀ i : grid0.Coords, ∀ a, (k0_off1 i) a + S1x2048.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S8x3x4096.size a
  hwx0_1 : ∀ i : grid0.Coords, EltTy.bits .f32 = 32 ∨ (Rect.block (s := S8x3x4096) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x4096.size a
  hwx0_3 : ∀ i : grid0.Coords, EltTy.bits .f32 = 32 ∨ (Rect.block (s := S8x1x4096) S1x1x1024.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x3, .f32⟩
  | .hbm, ⟨8, _⟩ => ⟨S_, .f32⟩
  | .hbm, ⟨9, _⟩ => ⟨S8x4096, .f32⟩
  | .hbm, ⟨10, _⟩ => ⟨S8x4096x4096, .f32⟩
  | .hbm, ⟨11, _⟩ => ⟨S8x4096x1, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Pieces.lean ====
/-
  What each of the four control cases of the kernel body leaves in its two scratch accumulators and its two
  output staging buffers, as values. The body builds one [1024, 2048] tile of squared distances from the point's
  block of x rows and block of y columns (`tile`), folds it down its rows into a [1, 2048] piece of column minima
  and across its columns into [1, 1024] row minima, and takes the elementwise minimum of each with what the
  scratch held (`colStep`, `rowStep`). The column scratch [1, 4096] is stored whole (+inf) at the first point
  of a batch and afterwards only on the half [2048 c, 2048 c + 2048) the point's column block covers; the row
  scratch [1, 1024] is re-seeded (+inf) whenever a new sweep over the column blocks starts (c = 0).
-/
import proofs.«117250_j66623532696128_2_alg».proof.Proof.Gen.KernelIdeal.Frame
import Idealize.ShloMosaic.Lib.Pipeline.Value
import Idealize.ShloMosaic.Lib.WritesUnit
import Idealize.ShloMosaic.Lib.Tactic

noncomputable section

open Idealize.ShloMosaic Idealize.ShloMosaic.TcCoe Idealize.SL.Sem Idealize.ShloMosaic.Tactic

namespace Cert.KernelIdeal.Chamfer

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The [1024, 2048] tile of squared distances a point computes from its block of rows and block of columns. -/
def tile (x0 : Vec F S1x1024x3 .f32) (x1 : Vec F S1x3x2048 .f32) : FVec F S1024x2048 .f32 :=
  k0_pay1 (k0_pay10 x0) (k0_pay11 x0) (k0_pay14 x1) (k0_pay15 x1) (k0_pay16 x0 x1)

/-- The column step: the elementwise minimum of a [1, 2048] piece of the column scratch with the tile's column minima. -/
def colStep (x0 : Vec F S1x1024x3 .f32) (x1 : Vec F S1x3x2048 .f32) (v : Vec F S1x2048 .f32) : FVec F S1x2048 .f32 :=
  k0_pay2 (k0_pay10 x0) (k0_pay11 x0) (k0_pay14 x1) (k0_pay15 x1) (k0_pay16 x0 x1) v

/-- The row step: the elementwise minimum of the row scratch with the tile's row minima. -/
def rowStep (x0 : Vec F S1x1024x3 .f32) (x1 : Vec F S1x3x2048 .f32) (v : Vec F S1x1024 .f32) : FVec F S1x1024 .f32 :=
  k0_pay3 (k0_pay10 x0) (k0_pay11 x0) (k0_pay14 x1) (k0_pay15 x1) (k0_pay16 x0 x1) v

/-- The half of the column scratch a point loads: columns [off, off + 2048) of `xs0`, off the point's column offset. -/
def half (i : grid0.Coords) (xs0 : Vec F S1x4096 .f32) : Vec F S1x2048 .f32 :=
  View.ld xs0 (Rect.unit (s := S1x4096) (k0_off1 i) S1x2048.size (k0_off1_inb i))

/-- Case A (a point with c = 0): the row scratch is re-seeded with +inf, then takes the row step. -/
theorem row_A (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : cond0_0 i) (hc1 : cond0_1 i) (hc2 : ¬cond0_2 i) (hc3 : ¬cond0_3 i) (x0 : Vec F S1x1024x3 .f32) (x1 : Vec F S1x3x2048 .f32) :
    sout0_A_1 c i arg3 harg3 arg4 harg4 arg5 harg5 arg6 harg6 arg7 harg7 arg8 harg8 hc0 hc1 hc2 hc3 x0 x1 = rowStep x0 x1 k0_pay7 := by
  unfold sout0_A_1
  rw [View.read_writes_eq_canon _ _ _ (scover0_A_1 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S1x1024) hz2, View.readCov_unit_zero (S := S1x1024) _ hz2]
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

/-- Case C (a point with c = 0): the row scratch is re-seeded with +inf, then takes the row step. -/
theorem row_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : ¬cond0_0 i) (hc1 : cond0_1 i) (hc2 : ¬cond0_2 i) (hc3 : ¬cond0_3 i) (x0 : Vec F S1x1024x3 .f32) (x1 : Vec F S1x3x2048 .f32) (xs0 : Vec F S1x4096 .f32) :
    sout0_C_1 c i arg3 harg3 arg4 harg4 arg5 harg5 arg6 harg6 arg7 harg7 arg8 harg8 hc0 hc1 hc2 hc3 x0 x1 xs0 = rowStep x0 x1 k0_pay7 := by
  unfold sout0_C_1
  rw [View.read_writes_eq_canon _ _ _ (scover0_C_1 c i arg3 harg3 arg4 harg4 arg5 harg5 arg6 harg6 arg7 harg7 arg8 harg8 hc0 hc1 hc2 hc3 x0 x1 xs0)]
  unfold kernelRun0_C
  dsimp only
  sl_unfold_words
  rw [View.canon_cons_unit_zero (S := S1x1024) hz2, View.readCov_unit_zero (S := S1x1024) _ hz2]
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

/-- Case B (a point with c = 1): the row scratch ends at the row step over what the point before left. -/
theorem row_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : ¬cond0_0 i) (hc1 : ¬cond0_1 i) (hc2 : cond0_2 i) (hc3 : ¬cond0_3 i) (x0 : Vec F S1x1024x3 .f32) (x1 : Vec F S1x3x2048 .f32) (xs0 : Vec F S1x4096 .f32) (xs1 : Vec F S1x1024 .f32) :
    sout0_B_1 c i arg3 harg3 arg4 harg4 arg5 harg5 arg6 harg6 arg7 harg7 arg8 harg8 hc0 hc1 hc2 hc3 x0 x1 xs0 xs1 = rowStep x0 x1 xs1 := by
  unfold sout0_B_1
  rw [View.read_writes_eq_canon _ _ _ (scover0_B_1 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero (S := S1x1024) hz2]
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

/-- Case B: the row output's staging buffer ends at the row scratch it has just stored, re-laid as [1, 1, 1024]. -/
theorem out3_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : ¬cond0_0 i) (hc1 : ¬cond0_1 i) (hc2 : cond0_2 i) (hc3 : ¬cond0_3 i) (x0 : Vec F S1x1024x3 .f32) (x1 : Vec F S1x3x2048 .f32) (xs0 : Vec F S1x4096 .f32) (xs1 : Vec F S1x1024 .f32) :
    out0_B_3 c i arg3 harg3 arg4 harg4 arg5 harg5 arg6 harg6 arg7 harg7 arg8 harg8 hc0 hc1 hc2 hc3 x0 x1 xs0 xs1 = k0_pay4 (rowStep x0 x1 xs1) := by
  unfold out0_B_3
  rw [View.read_writes_eq_canon _ _ _ (cover0_B_3 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero (S := S1x1x1024) hz3, View.readCov_unit_zero (S := S1x1024) _ hz2]
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

/-- Case D (a point with c = 1): the row scratch ends at the row step over what the point before left. -/
theorem row_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : ¬cond0_0 i) (hc1 : ¬cond0_1 i) (hc2 : cond0_2 i) (hc3 : cond0_3 i) (x0 : Vec F S1x1024x3 .f32) (x1 : Vec F S1x3x2048 .f32) (xs0 : Vec F S1x4096 .f32) (xs1 : Vec F S1x1024 .f32) :
    sout0_D_1 c i arg3 harg3 arg4 harg4 arg5 harg5 arg6 harg6 arg7 harg7 arg8 harg8 hc0 hc1 hc2 hc3 x0 x1 xs0 xs1 = rowStep x0 x1 xs1 := by
  unfold sout0_D_1
  rw [View.read_writes_eq_canon _ _ _ (scover0_D_1 c i arg3 harg3 arg4 harg4 arg5 harg5 arg6 harg6 arg7 harg7 arg8 harg8 hc0 hc1 hc2 hc3 x0 x1 xs0 xs1)]
  unfold kernelRun0_D
  dsimp only
  sl_unfold_words
  rw [View.canon_unit_zero (S := S1x1024) hz2]
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

/-- Case D: the row output's staging buffer ends at the row scratch it has just stored, re-laid as [1, 1, 1024]. -/
theorem out3_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : ¬cond0_0 i) (hc1 : ¬cond0_1 i) (hc2 : cond0_2 i) (hc3 : cond0_3 i) (x0 : Vec F S1x1024x3 .f32) (x1 : Vec F S1x3x2048 .f32) (xs0 : Vec F S1x4096 .f32) (xs1 : Vec F S1x1024 .f32) :
    out0_D_3 c i arg3 harg3 arg4 harg4 arg5 harg5 arg6 harg6 arg7 harg7 arg8 harg8 hc0 hc1 hc2 hc3 x0 x1 xs0 xs1 = k0_pay4 (rowStep x0 x1 xs1) := by
  unfold out0_D_3
  rw [View.read_writes_eq_canon _ _ _ (cover0_D_3 c i arg3 harg3 arg4 harg4 arg5 harg5 arg6 harg6 arg7 harg7 arg8 harg8 hc0 hc1 hc2 hc3 x0 x1 xs0 xs1)]
  unfold kernelRun0_D
  dsimp only
  sl_unfold_words
  rw [View.canon_unit_zero (S := S1x1x1024) hz3, View.readCov_unit_zero (S := S1x1024) _ hz2]
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

/-- Case B: the column scratch is what the point before left, with the half this point works on overwritten by
    the column step over that half. -/
theorem col_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : ¬cond0_0 i) (hc1 : ¬cond0_1 i) (hc2 : cond0_2 i) (hc3 : ¬cond0_3 i) (x0 : Vec F S1x1024x3 .f32) (x1 : Vec F S1x3x2048 .f32) (xs0 : Vec F S1x4096 .f32) (xs1 : Vec F S1x1024 .f32) :
    sout0_B_0 c i arg3 harg3 arg4 harg4 arg5 harg5 arg6 harg6 arg7 harg7 arg8 harg8 hc0 hc1 hc2 hc3 x0 x1 xs0 xs1 = arg7.view.read (Elt F) (arg7.view.writes (Elt F) (harg7.unread xs0)
      [⟨Rect.unit (s := S1x4096) (k0_off1 i) S1x2048.size (k0_off1_inb i), colStep x0 x1 (half i xs0)⟩]) := by
  unfold sout0_B_0
  unfold kernelRun0_B
  dsimp only
  sl_unfold_words
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

/-- Case C: the column scratch is what the point before left, with the half this point works on overwritten by
    the column step over that half. -/
theorem col_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : ¬cond0_0 i) (hc1 : cond0_1 i) (hc2 : ¬cond0_2 i) (hc3 : ¬cond0_3 i) (x0 : Vec F S1x1024x3 .f32) (x1 : Vec F S1x3x2048 .f32) (xs0 : Vec F S1x4096 .f32) :
    sout0_C_0 c i arg3 harg3 arg4 harg4 arg5 harg5 arg6 harg6 arg7 harg7 arg8 harg8 hc0 hc1 hc2 hc3 x0 x1 xs0 = arg7.view.read (Elt F) (arg7.view.writes (Elt F) (harg7.unread xs0)
      [⟨Rect.unit (s := S1x4096) (k0_off1 i) S1x2048.size (k0_off1_inb i), colStep x0 x1 (half i xs0)⟩]) := by
  unfold sout0_C_0
  unfold kernelRun0_C
  dsimp only
  sl_unfold_words
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

/-- Case D: the column scratch is what the point before left, with the half this point works on overwritten by
    the column step over that half. -/
theorem col_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : ¬cond0_0 i) (hc1 : ¬cond0_1 i) (hc2 : cond0_2 i) (hc3 : cond0_3 i) (x0 : Vec F S1x1024x3 .f32) (x1 : Vec F S1x3x2048 .f32) (xs0 : Vec F S1x4096 .f32) (xs1 : Vec F S1x1024 .f32) :
    sout0_D_0 c i arg3 harg3 arg4 harg4 arg5 harg5 arg6 harg6 arg7 harg7 arg8 harg8 hc0 hc1 hc2 hc3 x0 x1 xs0 xs1 = arg7.view.read (Elt F) (arg7.view.writes (Elt F) (harg7.unread xs0)
      [⟨Rect.unit (s := S1x4096) (k0_off1 i) S1x2048.size (k0_off1_inb i), colStep x0 x1 (half i xs0)⟩]) := by
  unfold sout0_D_0
  unfold kernelRun0_D
  dsimp only
  sl_unfold_words
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

/-- One store of +inf through the whole column scratch leaves +inf everywhere. -/
theorem read_inf (arg7 : Memref sig .tc .vmem S1x4096 .f32) :
    arg7.view.read (Elt F) (arg7.view.writes (Elt F) arg7.view.junk
      [⟨Rect.unit (s := S1x4096) ![0, 0] ![1, 4096] inb_S1x4096_S1x4096_0_0, k0_pay6 (F := F)⟩]) = k0_pay6 (F := F) := by
  show arg7.view.read (Elt F) (arg7.view.writes (Elt F) arg7.view.junk
      [⟨Rect.unit (s := S1x4096) ![0, 0] S1x4096.size inb_S1x4096_S1x4096_0_0, k0_pay6 (F := F)⟩]) = k0_pay6 (F := F)
  rw [View.read_writes_eq_canon _ _ _ (fun y => ⟨_, List.mem_singleton_self _, View.mem_set_unit_zero hz2 inb_S1x4096_S1x4096_0_0 y⟩),
    View.canon_unit_zero (S := S1x4096) hz2]

/-- Case A (the first point of a batch): the column scratch is +inf, with the half this point works on overwritten by
    the column step over +inf. -/
theorem col_A (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : cond0_0 i) (hc1 : cond0_1 i) (hc2 : ¬cond0_2 i) (hc3 : ¬cond0_3 i) (x0 : Vec F S1x1024x3 .f32) (x1 : Vec F S1x3x2048 .f32) :
    sout0_A_0 c i arg3 harg3 arg4 harg4 arg5 harg5 arg6 harg6 arg7 harg7 arg8 harg8 hc0 hc1 hc2 hc3 x0 x1 = VS0_0.read (Elt F) (VS0_0.writes (Elt F) VS0_0.junk
      [⟨Rect.unit (s := S1x4096) (k0_off1 i) S1x2048.size (k0_off1_inb i), colStep x0 x1 (half i (k0_pay6 (F := F)))⟩,
       ⟨Rect.unit (s := S1x4096) ![0, 0] S1x4096.size inb_S1x4096_S1x4096_0_0, k0_pay6 (F := F)⟩]) := by
  unfold sout0_A_0
  unfold kernelRun0_A
  dsimp only
  sl_unfold_words
  simp only [View.readAt_eq_ld, read_inf, harg3.read_unread, harg4.read_unread,
    View.ld_unit_zero (S := S1x1024x3) hz3, View.ld_unit_zero (S := S1x3x2048) hz3]
  rfl

/-- Case D (the last point of a batch): the column output's staging buffer ends at the column scratch as this point
    leaves it, re-laid as [1, 1, 4096]. -/
theorem out2_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S1x1024 .f32) (harg8 : arg8.IsWhole) (hc0 : ¬cond0_0 i) (hc1 : ¬cond0_1 i) (hc2 : cond0_2 i) (hc3 : cond0_3 i) (x0 : Vec F S1x1024x3 .f32) (x1 : Vec F S1x3x2048 .f32) (xs0 : Vec F S1x4096 .f32) (xs1 : Vec F S1x1024 .f32) :
    out0_D_2 c i arg3 harg3 arg4 harg4 arg5 harg5 arg6 harg6 arg7 harg7 arg8 harg8 hc0 hc1 hc2 hc3 x0 x1 xs0 xs1 = k0_pay5 (sout0_D_0 c i arg3 harg3 arg4 harg4 arg5 harg5 arg6 harg6 arg7 harg7 arg8 harg8 hc0 hc1 hc2 hc3 x0 x1 xs0 xs1) := by
  rw [col_D]
  unfold out0_D_2
  rw [View.read_writes_eq_canon _ _ _ (cover0_D_2 c i arg3 harg3 arg4 harg4 arg5 harg5 arg6 harg6 arg7 harg7 arg8 harg8 hc0 hc1 hc2 hc3 x0 x1 xs0 xs1)]
  unfold kernelRun0_D
  dsimp only
  sl_unfold_words
  rw [View.canon_unit_zero (S := S1x1x4096) hz3]
  simp only [View.readAt_eq_ld, harg3.read_unread, harg4.read_unread, harg7.read_unread, harg8.read_unread,
    View.ld_unit_zero (S := S1x1024x3) hz3, View.ld_unit_zero (S := S1x3x2048) hz3, View.ld_unit_zero (S := S1x1024) hz2,
    View.ld_unit_zero (S := S1x4096) hz2]
  rfl

end Cert.KernelIdeal.Chamfer

end
-- ==== Proof.MinFold.lean ====
/-
  Minima over finite index sets of extended reals, carried by their universal property:
  c ≤ (the least of f over a set) iff c ≤ f k for every k of the set. From `⊤`, the least over the
  indices below n + k is the smaller of the least below n and the least over the block [n, n + k);
  below 0 it is `⊤`, and below the whole extent it is the least over everything.
-/
import Mathlib.Data.EReal.Basic
import Mathlib.Data.Finset.Fold
import Mathlib.Data.Fintype.Basic
import Mathlib.Order.Basic

namespace Cert.Chamfer

/-- The least value of `f` over a whole finite index type, folded from `⊤`. -/
noncomputable def minAll {ι : Type} [Fintype ι] (f : ι → EReal) : EReal :=
  (Finset.univ : Finset ι).fold min ⊤ f

theorem le_minAll {ι : Type} [Fintype ι] (f : ι → EReal) (c : EReal) : c ≤ minAll f ↔ ∀ k, c ≤ f k := by
  unfold minAll
  rw [Finset.le_fold_min]
  simp

/-- The least value of `f` over the indices below `n`, folded from `⊤`. -/
noncomputable def minBelow {N : ℕ} (f : Fin N → EReal) (n : ℕ) : EReal :=
  (Finset.univ.filter fun i : Fin N => i.val < n).fold min ⊤ f

theorem le_minBelow {N : ℕ} (f : Fin N → EReal) (n : ℕ) (c : EReal) :
    c ≤ minBelow f n ↔ ∀ i : Fin N, i.val < n → c ≤ f i := by
  unfold minBelow
  rw [Finset.le_fold_min]
  simp

/-- Nothing lies below 0: the least is `⊤`. -/
theorem minBelow_zero {N : ℕ} (f : Fin N → EReal) : minBelow f 0 = ⊤ :=
  top_unique ((le_minBelow f 0 ⊤).mpr fun i h => absurd h (Nat.not_lt_zero _))

/-- One more block of `k` indices: the least below `n + k` is the smaller of the least below `n` and the least
    over the block. -/
theorem minBelow_add {N : ℕ} (f : Fin N → EReal) (n k : ℕ) (h : n + k ≤ N) :
    minBelow f (n + k) = min (minBelow f n) (minAll fun p : Fin k => f ⟨n + p.val, by have := p.isLt; omega⟩) := by
  refine eq_of_forall_le_iff fun c => ?_
  rw [le_min_iff, le_minBelow, le_minBelow, le_minAll]
  constructor
  · intro hc
    exact ⟨fun i hi => hc i (by omega), fun p => hc _ (by have := p.isLt; show n + p.val < n + k; omega)⟩
  · rintro ⟨h1, h2⟩ i hi
    by_cases hn : i.val < n
    · exact h1 i hn
    · have e : (⟨n + (⟨i.val - n, by omega⟩ : Fin k).val, by have := i.isLt; show n + (i.val - n) < N; omega⟩ : Fin N) = i :=
        Fin.ext (by show n + (i.val - n) = i.val; omega)
      have := h2 ⟨i.val - n, by omega⟩
      rw [e] at this
      exact this

/-- Below the whole extent: the least over everything. -/
theorem minBelow_full {N : ℕ} (f : Fin N → EReal) : minBelow f N = minAll f := by
  refine eq_of_forall_le_iff fun c => ?_
  rw [le_minBelow, le_minAll]
  exact ⟨fun h k => h k k.isLt, fun h i _ => h i⟩

/-- The least of two functions that agree is the same. -/
theorem minAll_congr {ι : Type} [Fintype ι] {f g : ι → EReal} (h : ∀ k, f k = g k) : minAll f = minAll g := by
  rw [show f = g from funext h]

theorem minBelow_congr {N : ℕ} {f g : Fin N → EReal} (h : ∀ k, f k = g k) (n : ℕ) : minBelow f n = minBelow g n := by
  rw [show f = g from funext h]

end Cert.Chamfer
-- ==== Proof.Dist.lean ====
/-
  The squared distance between two points of ℝ³ in the two arrangements met here. Written over the
  extended reals with the literals as parameters:
    one side is   ((z + Σ_d u_d²) + (z + Σ_d v_d²)) − two · Σ_d u_d v_d,
    the other is  (((|u|² + |v|²) + u₀·(m·v₀)) + u₁·(m·v₁)) + u₂·(m·v₂)   with |u|² = (u₀² + u₁²) + u₂².
  For REAL coordinates and z = 0, two = 2, m = −2 both are |u|² + |v|² − 2 u·v: a ring identity in ℝ.
  (With an infinite coordinate the identity fails, since distributivity does; finiteness is used.)
-/
import Mathlib.Data.EReal.Operations
import Mathlib.Algebra.BigOperators.Fin
import Mathlib.Tactic.Ring
import Mathlib.Tactic.NormNum

namespace Cert.Chamfer

/-- The arrangement with the cross term subtracted whole. -/
noncomputable def distSub (z two : EReal) (u v : Fin 3 → EReal) : EReal :=
  ((z + ∑ k : Fin 3, u k * u k) + (z + ∑ k : Fin 3, v k * v k)) - two * ∑ k : Fin 3, u k * v k

/-- The arrangement with the factor distributed over the three coordinates. -/
noncomputable def distAdd (m : EReal) (u v : Fin 3 → EReal) : EReal :=
  ((((u 0 * u 0 + u 1 * u 1) + u 2 * u 2) + ((v 0 * v 0 + v 1 * v 1) + v 2 * v 2)) + u 0 * (m * v 0)
    + u 1 * (m * v 1)) + u 2 * (m * v 2)

/-- For real coordinates the two arrangements are one real number. -/
theorem distSub_eq_distAdd (u v : Fin 3 → ℝ) :
    distSub ((0 : ℝ) : EReal) ((2 : ℝ) : EReal) (fun k => (u k : EReal)) (fun k => (v k : EReal))
      = distAdd ((-2 : ℝ) : EReal) (fun k => (u k : EReal)) (fun k => (v k : EReal)) := by
  unfold distSub distAdd
  rw [Fin.sum_univ_three, Fin.sum_univ_three, Fin.sum_univ_three]
  simp only [← EReal.coe_mul, ← EReal.coe_add, ← EReal.coe_sub]
  congr 1
  ring

end Cert.Chamfer
-- ==== Proof.Consts.lean ====
/-
  The float literals the two programs spell, as the extended reals their bit patterns denote:
  0xC0000000 is −2, 0x40000000 is 2, 0x7F800000 is +∞ (the top of the extended reals).
  They are unfolded here once, so that no other module opens the IEEE reading of a pattern.
-/
import Idealize.ShloMosaic.PureOps.Ideal

noncomputable section

namespace Cert.Chamfer

open Idealize.ShloMosaic

/-- The pattern of `-2.0` denotes the real −2. -/
theorem ofBits_neg_two : Ideal.ofBits .f32 0xC0000000#32 = ((-2 : ℝ) : EReal) := by
  simp [Ideal.ofBits, Ideal.ieee, -EReal.coe_mul]; norm_num

/-- The pattern of `2.0` denotes the real 2. -/
theorem ofBits_two : Ideal.ofBits .f32 0x40000000#32 = ((2 : ℝ) : EReal) := by
  simp [Ideal.ofBits, Ideal.ieee, -EReal.coe_mul]; norm_num

/-- The pattern of `+inf` denotes the top element. -/
theorem ofBits_inf : Ideal.ofBits .f32 0x7F800000#32 = (⊤ : EReal) := by
  simp [Ideal.ofBits, Ideal.ieee]

/-- The pattern of `+0.0` denotes the real 0. -/
theorem ofBits_zero : Ideal.ofBits .f32 0x00000000#32 = ((0 : ℝ) : EReal) := by
  simp [Ideal.ofBits, Ideal.ieee]

end Cert.Chamfer

end
-- ==== Proof.TileValue.lean ====
/-
  The body's arithmetic read at an index, at the ideal instance. With u = row p of the point's block of x and
  v = column q of its block of y (three coordinates each):
    the tile at (p, q) is the squared distance in the arrangement with −2 distributed over the coordinates;
    the column step at q is the smaller of the scratch entry and the least of the tile's column q over its 1024 rows;
    the row step at p is the smaller of the scratch entry and the least of the tile's row p over its 2048 columns.
  A reduction from +inf is the least over the reduced axis; the layout operations (slices, unit-axis casts,
  broadcasts, the [1024,1] → [1,1024] transpose) each read one entry of their operand.
-/
import proofs.«117250_j66623532696128_2_alg».proof.Proof.Pieces
import proofs.«117250_j66623532696128_2_alg».proof.Proof.MinFold
import proofs.«117250_j66623532696128_2_alg».proof.Proof.Dist
import proofs.«117250_j66623532696128_2_alg».proof.Proof.Consts
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Chamfer

open Cert.KernelIdeal Cert.KernelIdeal.Gen Cert.Chamfer

/-- Row `p`, coordinate 0 of the block of x, through the unit-axis cast and the width-one slice at offset 0. -/
theorem xcoord0 (x0 : Vec Ideal S1x1024x3 .f32) (p : Fin 1024) :
    extractStridedSlice S1024x1 ![0, 0] (k0_pay8 (F := Ideal) x0) slices_S1024x3_o0_0_S1024x1 (ix2 p (0 : Fin 1))
      = x0 (ix3 (0 : Fin 1) p (0 : Fin 3)) := by
  refine (extractStridedSlice_apply ![0, 0] (k0_pay8 (F := Ideal) x0) slices_S1024x3_o0_0_S1024x1 (ix2 p (0 : Fin 1))
    (ix2 p (0 : Fin 3)) (fun a => match a with
      | ⟨0, _⟩ => by show p.val = 0 + p.val; omega
      | ⟨1, _⟩ => by show 0 = 0 + 0; omega)).trans ?_
  unfold k0_pay8
  refine shapeCast_apply x0 _ (ix2 p (0 : Fin 3)) (ix3 (0 : Fin 1) p (0 : Fin 3)) ?_
  rw [Shape.rowMajor_val_three, Shape.rowMajor_val_two]
  show ((0 : ℕ) * 1024 + p.val) * 3 + 0 = p.val * 3 + 0
  omega

/-- Row `p`, coordinate 1 of the block of x, through the unit-axis cast and the width-one slice at offset 1. -/
theorem xcoord1 (x0 : Vec Ideal S1x1024x3 .f32) (p : Fin 1024) :
    extractStridedSlice S1024x1 ![0, 1] (k0_pay8 (F := Ideal) x0) slices_S1024x3_o0_1_S1024x1 (ix2 p (0 : Fin 1))
      = x0 (ix3 (0 : Fin 1) p (1 : Fin 3)) := by
  refine (extractStridedSlice_apply ![0, 1] (k0_pay8 (F := Ideal) x0) slices_S1024x3_o0_1_S1024x1 (ix2 p (0 : Fin 1))
    (ix2 p (1 : Fin 3)) (fun a => match a with
      | ⟨0, _⟩ => by show p.val = 0 + p.val; omega
      | ⟨1, _⟩ => by show 1 = 1 + 0; omega)).trans ?_
  unfold k0_pay8
  refine shapeCast_apply x0 _ (ix2 p (1 : Fin 3)) (ix3 (0 : Fin 1) p (1 : Fin 3)) ?_
  rw [Shape.rowMajor_val_three, Shape.rowMajor_val_two]
  show ((0 : ℕ) * 1024 + p.val) * 3 + 1 = p.val * 3 + 1
  omega

/-- Row `p`, coordinate 2 of the block of x, through the unit-axis cast and the width-one slice at offset 2. -/
theorem xcoord2 (x0 : Vec Ideal S1x1024x3 .f32) (p : Fin 1024) :
    extractStridedSlice S1024x1 ![0, 2] (k0_pay8 (F := Ideal) x0) slices_S1024x3_o0_2_S1024x1 (ix2 p (0 : Fin 1))
      = x0 (ix3 (0 : Fin 1) p (2 : Fin 3)) := by
  refine (extractStridedSlice_apply ![0, 2] (k0_pay8 (F := Ideal) x0) slices_S1024x3_o0_2_S1024x1 (ix2 p (0 : Fin 1))
    (ix2 p (2 : Fin 3)) (fun a => match a with
      | ⟨0, _⟩ => by show p.val = 0 + p.val; omega
      | ⟨1, _⟩ => by show 2 = 2 + 0; omega)).trans ?_
  unfold k0_pay8
  refine shapeCast_apply x0 _ (ix2 p (2 : Fin 3)) (ix3 (0 : Fin 1) p (2 : Fin 3)) ?_
  rw [Shape.rowMajor_val_three, Shape.rowMajor_val_two]
  show ((0 : ℕ) * 1024 + p.val) * 3 + 2 = p.val * 3 + 2
  omega

/-- Column `q`, coordinate 0 of the block of y (held transposed), through the unit-axis cast and the height-one
    slice at offset 0. -/
theorem ycoord0 (x1 : Vec Ideal S1x3x2048 .f32) (q : Fin 2048) :
    extractStridedSlice S1x2048 ![0, 0] (k0_pay9 (F := Ideal) x1) slices_S3x2048_o0_0_S1x2048 (ix2 (0 : Fin 1) q)
      = x1 (ix3 (0 : Fin 1) (0 : Fin 3) q) := by
  refine (extractStridedSlice_apply ![0, 0] (k0_pay9 (F := Ideal) x1) slices_S3x2048_o0_0_S1x2048 (ix2 (0 : Fin 1) q)
    (ix2 (0 : Fin 3) q) (fun a => match a with
      | ⟨0, _⟩ => by show 0 = 0 + 0; omega
      | ⟨1, _⟩ => by show q.val = 0 + q.val; omega)).trans ?_
  unfold k0_pay9
  refine shapeCast_apply x1 _ (ix2 (0 : Fin 3) q) (ix3 (0 : Fin 1) (0 : Fin 3) q) ?_
  rw [Shape.rowMajor_val_three, Shape.rowMajor_val_two]
  show ((0 : ℕ) * 3 + 0) * 2048 + q.val = 0 * 2048 + q.val
  omega

/-- Column `q`, coordinate 1 of the block of y (held transposed), through the unit-axis cast and the height-one
    slice at offset 1. -/
theorem ycoord1 (x1 : Vec Ideal S1x3x2048 .f32) (q : Fin 2048) :
    extractStridedSlice S1x2048 ![1, 0] (k0_pay9 (F := Ideal) x1) slices_S3x2048_o1_0_S1x2048 (ix2 (0 : Fin 1) q)
      = x1 (ix3 (0 : Fin 1) (1 : Fin 3) q) := by
  refine (extractStridedSlice_apply ![1, 0] (k0_pay9 (F := Ideal) x1) slices_S3x2048_o1_0_S1x2048 (ix2 (0 : Fin 1) q)
    (ix2 (1 : Fin 3) q) (fun a => match a with
      | ⟨0, _⟩ => by show 1 = 1 + 0; omega
      | ⟨1, _⟩ => by show q.val = 0 + q.val; omega)).trans ?_
  unfold k0_pay9
  refine shapeCast_apply x1 _ (ix2 (1 : Fin 3) q) (ix3 (0 : Fin 1) (1 : Fin 3) q) ?_
  rw [Shape.rowMajor_val_three, Shape.rowMajor_val_two]
  show ((0 : ℕ) * 3 + 1) * 2048 + q.val = 1 * 2048 + q.val
  omega

/-- Column `q`, coordinate 2 of the block of y (held transposed), through the unit-axis cast and the height-one
    slice at offset 2. -/
theorem ycoord2 (x1 : Vec Ideal S1x3x2048 .f32) (q : Fin 2048) :
    extractStridedSlice S1x2048 ![2, 0] (k0_pay9 (F := Ideal) x1) slices_S3x2048_o2_0_S1x2048 (ix2 (0 : Fin 1) q)
      = x1 (ix3 (0 : Fin 1) (2 : Fin 3) q) := by
  refine (extractStridedSlice_apply ![2, 0] (k0_pay9 (F := Ideal) x1) slices_S3x2048_o2_0_S1x2048 (ix2 (0 : Fin 1) q)
    (ix2 (2 : Fin 3) q) (fun a => match a with
      | ⟨0, _⟩ => by show 2 = 2 + 0; omega
      | ⟨1, _⟩ => by show q.val = 0 + q.val; omega)).trans ?_
  unfold k0_pay9
  refine shapeCast_apply x1 _ (ix2 (2 : Fin 3) q) (ix3 (0 : Fin 1) (2 : Fin 3) q) ?_
  rw [Shape.rowMajor_val_three, Shape.rowMajor_val_two]
  show ((0 : ℕ) * 3 + 2) * 2048 + q.val = 2 * 2048 + q.val
  omega

/-- A column vector broadcast along the columns reads its row's entry. -/
theorem bcol (v : FVec Ideal S1024x1 .f32) (p : Fin 1024) (q : Fin 2048) :
    broadcastTo S1024x2048 v broadcasts_S1024x1_S1024x2048 (ix2 p q) = v (ix2 p (0 : Fin 1)) :=
  broadcastTo_apply v _ (ix2 p q) (ix2 p (0 : Fin 1)) (fun a => by match a with | ⟨0, _⟩ => rfl | ⟨1, _⟩ => rfl)

/-- A row vector broadcast down the rows reads its column's entry. -/
theorem brow (v : FVec Ideal S1x2048 .f32) (p : Fin 1024) (q : Fin 2048) :
    broadcastTo S1024x2048 v broadcasts_S1x2048_S1024x2048 (ix2 p q) = v (ix2 (0 : Fin 1) q) :=
  broadcastTo_apply v _ (ix2 p q) (ix2 (0 : Fin 1) q) (fun a => by match a with | ⟨0, _⟩ => rfl | ⟨1, _⟩ => rfl)

/-- The tile at (p, q): the squared distance of row `p` of the x block and column `q` of the y block, the
    factor −2 distributed over the three coordinates. -/
theorem tile_apply (x0 : Vec Ideal S1x1024x3 .f32) (x1 : Vec Ideal S1x3x2048 .f32) (p : Fin 1024) (q : Fin 2048) :
    tile (F := Ideal) x0 x1 (ix2 p q)
      = distAdd (Ideal.ofBits .f32 0xC0000000#32) (fun d => x0 (ix3 (0 : Fin 1) p d)) (fun d => x1 (ix3 (0 : Fin 1) d q)) := by
  have hx0 := xcoord0 x0 p
  have hx1 := xcoord1 x0 p
  have hx2 := xcoord2 x0 p
  have hy0 := ycoord0 x1 q
  have hy1 := ycoord1 x1 q
  have hy2 := ycoord2 x1 q
  unfold tile k0_pay1 k0_pay16 k0_pay14 k0_pay15 k0_pay10 k0_pay11 k0_pay12 k0_pay13 distAdd
  simp only [addf_apply, mulf_apply, bcol, brow, broadcast_apply]
  rw [hx0, hx1, hx2, hy0, hy1, hy2]
  rfl

/-- A float `multi_reduction <minimumf>` over one axis, read at the ideal instance: the fold of `min` from the
    accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

set_option backward.isDefEq.respectTransparency.types false in
/-- Reducing the rows away: the source index over column `q` with row `k` is (k, q). -/
theorem lift_col (q : Fin 2048) (k : Fin 1024) :
    (reduces_S1024x2048_S2048 : S1024x2048.Reduces [0] S2048).lift (ix1 q) k = ix2 k q := by
  funext c
  apply Fin.ext
  rw [Shape.Reduces.lift_val]
  unfold Shape.Reduces.liftVal
  match c with
  | ⟨0, _⟩ => rfl
  | ⟨1, _⟩ => rfl

set_option backward.isDefEq.respectTransparency.types false in
/-- Reducing the columns away: the source index over row `p` with column `k` is (p, k). -/
theorem lift_row (p : Fin 1024) (k : Fin 2048) :
    (reduces_S1024x2048_S1024 : S1024x2048.Reduces [1] S1024).lift (ix1 p) k = ix2 p k := by
  funext c
  apply Fin.ext
  rw [Shape.Reduces.lift_val]
  unfold Shape.Reduces.liftVal
  match c with
  | ⟨0, _⟩ => rfl
  | ⟨1, _⟩ => rfl

/-- The column step at column `q`: the smaller of the scratch entry and the least of the tile's column `q`. -/
theorem colStep_apply (x0 : Vec Ideal S1x1024x3 .f32) (x1 : Vec Ideal S1x3x2048 .f32) (v : Vec Ideal S1x2048 .f32)
    (q : Fin 2048) :
    colStep (F := Ideal) x0 x1 v (ix2 0 q)
      = min (v (ix2 0 q)) (minAll fun p : Fin 1024 => tile (F := Ideal) x0 x1 (ix2 p q)) := by
  have e1 : ∀ (w : FVec Ideal S2048 .f32), shapeCast S1x2048 w shapeCasts_S2048_S1x2048 (ix2 0 q) = w (ix1 q) := fun w =>
    shapeCast_apply w _ (ix2 0 q) (ix1 q) (by
      rw [Shape.rowMajor_val_one, Shape.rowMajor_val_two]; show q.val = 0 * 2048 + q.val; omega)
  have e2 := multiReduction_minimumf_single (tile (F := Ideal) x0 x1) 0x7F800000#32 reduces_S1024x2048_S2048 (.inl rfl) rfl (ix1 q)
  unfold colStep k0_pay2
  simp only [shapeCast_self, minimumf_apply, e1]
  show min (v (ix2 0 q)) (multiReduction .minimumf [0] S2048 (tile (F := Ideal) x0 x1) 0x7F800000#32
    reduces_S1024x2048_S2048 (.inl rfl) rfl (ix1 q)) = _
  rw [e2, Ideal.ofBits_def, ofBits_inf]
  refine congrArg (min _) ?_
  show Finset.fold min ⊤ (fun k : Fin 1024 => tile (F := Ideal) x0 x1 (reduces_S1024x2048_S2048.lift (ix1 q) k)) Finset.univ
    = Finset.fold min ⊤ (fun p : Fin 1024 => tile (F := Ideal) x0 x1 (ix2 p q)) Finset.univ
  simp only [lift_col]

/-- The row step at row `p`: the smaller of the scratch entry and the least of the tile's row `p`. -/
theorem rowStep_apply (x0 : Vec Ideal S1x1024x3 .f32) (x1 : Vec Ideal S1x3x2048 .f32) (v : Vec Ideal S1x1024 .f32)
    (p : Fin 1024) :
    rowStep (F := Ideal) x0 x1 v (ix2 0 p)
      = min (v (ix2 0 p)) (minAll fun q : Fin 2048 => tile (F := Ideal) x0 x1 (ix2 p q)) := by
  have e0 : ∀ (w : FVec Ideal S1024x1 .f32), transpose S1x1024 [1, 0] w transposes_S1024x1_p1_0_S1x1024 (ix2 0 p) = w (ix2 p 0) :=
    fun w => transpose_apply [1, 0] w _ (ix2 0 p) (ix2 p 0) (fun b => by match b with | ⟨0, _⟩ => rfl | ⟨1, _⟩ => rfl)
  have e1 : ∀ (w : FVec Ideal S1024 .f32), shapeCast S1024x1 w shapeCasts_S1024_S1024x1 (ix2 p 0) = w (ix1 p) := fun w =>
    shapeCast_apply w _ (ix2 p 0) (ix1 p) (by
      rw [Shape.rowMajor_val_one, Shape.rowMajor_val_two]; show p.val = p.val * 1 + 0; omega)
  have e2 := multiReduction_minimumf_single (tile (F := Ideal) x0 x1) 0x7F800000#32 reduces_S1024x2048_S1024 (.inl rfl) rfl (ix1 p)
  unfold rowStep k0_pay3
  simp only [shapeCast_self, minimumf_apply, e0, e1]
  show min (v (ix2 0 p)) (multiReduction .minimumf [1] S1024 (tile (F := Ideal) x0 x1) 0x7F800000#32
    reduces_S1024x2048_S1024 (.inl rfl) rfl (ix1 p)) = _
  rw [e2, Ideal.ofBits_def, ofBits_inf]
  refine congrArg (min _) ?_
  show Finset.fold min ⊤ (fun k : Fin 2048 => tile (F := Ideal) x0 x1 (reduces_S1024x2048_S1024.lift (ix1 p) k)) Finset.univ
    = Finset.fold min ⊤ (fun q : Fin 2048 => tile (F := Ideal) x0 x1 (ix2 p q)) Finset.univ
  simp only [lift_row]

/-- The seeds the scratches are reset with are +inf everywhere. -/
theorem pay6_apply (y : S1x4096.Idx) : k0_pay6 (F := Ideal) y = (⊤ : EReal) := by
  unfold k0_pay6
  simp only [shapeCast_self, broadcast_apply]
  exact ofBits_inf
theorem pay7_apply (y : S1x1024.Idx) : k0_pay7 (F := Ideal) y = (⊤ : EReal) := by
  unfold k0_pay7
  simp only [shapeCast_self, broadcast_apply]
  exact ofBits_inf

/-- The two output re-layouts add a leading unit axis: entry (0, 0, k) is entry (0, k). -/
theorem pay4_apply (v : Vec Ideal S1x1024 .f32) (p : Fin 1024) : k0_pay4 (F := Ideal) v (ix3 0 0 p) = v (ix2 0 p) := by
  unfold k0_pay4
  exact shapeCast_apply v _ (ix3 0 0 p) (ix2 0 p) (by
    rw [Shape.rowMajor_val_three, Shape.rowMajor_val_two]; show 0 * 1024 + p.val = ((0 : ℕ) * 1 + 0) * 1024 + p.val; omega)
theorem pay5_apply (v : Vec Ideal S1x4096 .f32) (j : Fin 4096) : k0_pay5 (F := Ideal) v (ix3 0 0 j) = v (ix2 0 j) := by
  unfold k0_pay5
  exact shapeCast_apply v _ (ix3 0 0 j) (ix2 0 j) (by
    rw [Shape.rowMajor_val_three, Shape.rowMajor_val_two]; show 0 * 4096 + j.val = ((0 : ℕ) * 1 + 0) * 4096 + j.val; omega)

end Cert.KernelIdeal.Chamfer

end
-- ==== Proof.Blocks.lean ====
/-
  A point's data read off the grid. Point t of the 64 is (b, r, c) = (t / 8, t % 8 / 2, t % 2): its block of x is rows
  [1024 r, 1024 r + 1024) of batch b, its block of y (held transposed, [8, 3, 4096]) columns [2048 c, 2048 c + 2048),
  and the half of the column scratch it works on starts at column 2048 c. The arrays are read through total
  accessors over natural-number coordinates (zero outside the extents), so that the arithmetic on the coordinates
  is plain arithmetic on naturals. The squared distance of row i of x and row j of y in batch b is `kd b i j`.
  Also: a store through one half of the [1, 4096] column scratch read back at a column inside or outside that half.
-/
import proofs.«117250_j66623532696128_2_alg».proof.Proof.TileValue
import Idealize.ShloMosaic.Lib.WritesUnit

noncomputable section

open Idealize.ShloMosaic Idealize.ShloMosaic.TcCoe Idealize.SL.Sem Idealize.ShloMosaic.ValueIdx

namespace Cert.KernelIdeal.Chamfer

open Cert.KernelIdeal Cert.KernelIdeal.Gen Cert.Chamfer

/-! ## The half-overwritten column scratch, at any float instance -/

section Half
variable {F : FTy → Type} [FloatOps F]

/-- The loaded half at column `q` is the scratch at column `o + q`. -/
theorem half_apply (i : grid0.Coords) (xs0 : Vec F S1x4096 .f32) (o : ℕ) (ho : k0_off1 i = ![0, o]) (q : Fin 2048)
    (hq : o + q.val < 4096) : half i xs0 (ix2 0 q) = xs0 (ix2 0 ⟨o + q.val, hq⟩) := by
  unfold half
  show xs0 ((Rect.unit (s := S1x4096) (k0_off1 i) S1x2048.size (k0_off1_inb i)).emb (ix2 0 q)) = _
  refine congrArg xs0 (funext fun a => Fin.ext ?_)
  show k0_off1 i a + 1 * ((ix2 (0 : Fin 1) q) a).val = _
  rw [ho]
  match a with
  | ⟨0, _⟩ => rfl
  | ⟨1, _⟩ => show o + 1 * q.val = o + q.val; omega

/-- A column inside the stored half reads the stored payload. -/
theorem carry_in (arg7 : Memref sig .tc .vmem S1x4096 .f32) (f : arg7.view.ty.Contents (Elt F)) (i : grid0.Coords)
    (w : S1x2048.Idx → Elt F .f32) (L : List (View.Piece (Elt F) S1x4096 .f32)) (o : ℕ) (ho : k0_off1 i = ![0, o])
    (q : Fin 2048) (hq : o + q.val < 4096) :
    arg7.view.read (Elt F) (arg7.view.writes (Elt F) f
      (⟨Rect.unit (s := S1x4096) (k0_off1 i) S1x2048.size (k0_off1_inb i), w⟩ :: L)) (ix2 0 ⟨o + q.val, hq⟩) = w (ix2 0 q) :=
  View.read_writes_cons_unit_of_mem arg7.view f (k0_off1_inb i) w L (ix2 0 ⟨o + q.val, hq⟩) (ix2 0 q) ho
    (fun a => by match a with | ⟨0, _⟩ => rfl | ⟨1, _⟩ => rfl)

/-- A column outside the stored half reads what the earlier stores left. -/
theorem carry_out (arg7 : Memref sig .tc .vmem S1x4096 .f32) (f : arg7.view.ty.Contents (Elt F)) (i : grid0.Coords)
    (w : S1x2048.Idx → Elt F .f32) (L : List (View.Piece (Elt F) S1x4096 .f32)) (o : ℕ) (ho : k0_off1 i = ![0, o])
    (j : Fin 4096) (hj : j.val < o ∨ o + 2048 ≤ j.val) :
    arg7.view.read (Elt F) (arg7.view.writes (Elt F) f
      (⟨Rect.unit (s := S1x4096) (k0_off1 i) S1x2048.size (k0_off1_inb i), w⟩ :: L)) (ix2 0 j)
      = arg7.view.read (Elt F) (arg7.view.writes (Elt F) f L) (ix2 0 j) :=
  View.read_writes_cons_unit_of_not_mem arg7.view f (k0_off1_inb i) w L (ix2 0 j) ho 1 hj

end Half

/-! ## The arrays as the region finds them, and a point's blocks -/

variable (m : (ℓ : Loc nD τ sig) → Buf (Elt Ideal) ℓ) (c : Dev nD)

/-- x at (batch, row, coordinate), zero outside the extents. -/
def xN (b i d : ℕ) : EReal :=
  if h : b < 8 ∧ i < 4096 ∧ d < 3 then (V m c main_arg0 : S8x4096x3.Idx → EReal) (ix3 ⟨b, h.1⟩ ⟨i, h.2.1⟩ ⟨d, h.2.2⟩) else 0

/-- y, held transposed, at (batch, coordinate, row), zero outside the extents. -/
def yN (b d j : ℕ) : EReal :=
  if h : b < 8 ∧ d < 3 ∧ j < 4096 then (V m c main_v0 : S8x3x4096.Idx → EReal) (ix3 ⟨b, h.1⟩ ⟨d, h.2.1⟩ ⟨j, h.2.2⟩) else 0

/-- The squared distance of row `i` of x and row `j` of y in batch `b`, as the kernel arranges it. -/
def kd (b i j : ℕ) : EReal :=
  distAdd (Ideal.ofBits .f32 0xC0000000#32) (fun d => xN m c b i d.val) (fun d => yN m c b d.val j)

/-- The index maps over the grid: x's block is (t / 8, t % 8 / 2, 0), y's (t / 8, 0, t % 2), the column output's
    (t / 8, 0, 0), the row output's (t / 8, 0, t % 8 / 2); the column offset is 2048 (t % 2). -/
theorem idx0 : ∀ t : Fin cfg0.N, win0_0.index t 0 = t.val / 8 ∧ win0_0.index t 1 = t.val % 8 / 2 ∧ win0_0.index t 2 = 0 :=
  (by decide +kernel : ∀ t : Fin grid0.N, win0_0.index t 0 = t.val / 8 ∧ win0_0.index t 1 = t.val % 8 / 2 ∧ win0_0.index t 2 = 0)
theorem idx1 : ∀ t : Fin cfg0.N, win0_1.index t 0 = t.val / 8 ∧ win0_1.index t 1 = 0 ∧ win0_1.index t 2 = t.val % 2 :=
  (by decide +kernel : ∀ t : Fin grid0.N, win0_1.index t 0 = t.val / 8 ∧ win0_1.index t 1 = 0 ∧ win0_1.index t 2 = t.val % 2)
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem idx3 : ∀ t : Fin cfg0.N, win0_3.index t 0 = t.val / 8 ∧ win0_3.index t 1 = 0 ∧ win0_3.index t 2 = t.val % 8 / 2 :=
  (by decide +kernel : ∀ t : Fin grid0.N, win0_3.index t 0 = t.val / 8 ∧ win0_3.index t 1 = 0 ∧ win0_3.index t 2 = t.val % 8 / 2)
theorem off_pt : ∀ t : Fin cfg0.N, k0_off1 (grid0.coords t) = ![0, 2048 * (t.val % 2)] :=
  (by decide +kernel : ∀ t : Fin grid0.N, k0_off1 (grid0.coords t) = ![0, 2048 * (t.val % 2)])

/-- The block of x at point `t`: row `p`, coordinate `d`. -/
theorem x_blk (t : Fin cfg0.N) (p : Fin 1024) (d : Fin 3) :
    (iblk m c 0 t : Vec Ideal S1x1024x3 .f32) (ix3 0 p d) = xN m c (t.val / 8) (1024 * (t.val % 8 / 2) + p.val) d.val := by
  have hN : cfg0.N = 64 := N_0
  have ht := t.isLt
  have hp := p.isLt
  obtain ⟨h0, h1, h2⟩ := idx0 t
  unfold xN
  rw [dif_pos ⟨by omega, by omega, d.isLt⟩]
  unfold iblk
  rw [View.read_apply]
  show V m c main_arg0 _ = V m c main_arg0 _
  congr 1
  funext a
  apply Fin.ext
  match a with
  | ⟨0, _⟩ => show win0_0.index t 0 * 1 + 1 * 0 = t.val / 8; rw [h0]; omega
  | ⟨1, _⟩ => show win0_0.index t 1 * 1024 + 1 * p.val = 1024 * (t.val % 8 / 2) + p.val; rw [h1]; omega
  | ⟨2, _⟩ => show win0_0.index t 2 * 3 + 1 * d.val = d.val; rw [h2]; omega

/-- The block of y at point `t`: coordinate `d`, column `q`. -/
theorem y_blk (t : Fin cfg0.N) (d : Fin 3) (q : Fin 2048) :
    (iblk m c 1 t : Vec Ideal S1x3x2048 .f32) (ix3 0 d q) = yN m c (t.val / 8) d.val (2048 * (t.val % 2) + q.val) := by
  have hN : cfg0.N = 64 := N_0
  have ht := t.isLt
  have hq := q.isLt
  obtain ⟨h0, h1, h2⟩ := idx1 t
  unfold yN
  rw [dif_pos ⟨by omega, d.isLt, by omega⟩]
  unfold iblk
  rw [View.read_apply]
  show V m c main_v0 _ = V m c main_v0 _
  congr 1
  funext a
  apply Fin.ext
  match a with
  | ⟨0, _⟩ => show win0_1.index t 0 * 1 + 1 * 0 = t.val / 8; rw [h0]; omega
  | ⟨1, _⟩ => show win0_1.index t 1 * 3 + 1 * d.val = d.val; rw [h1]; omega
  | ⟨2, _⟩ => show win0_1.index t 2 * 2048 + 1 * q.val = 2048 * (t.val % 2) + q.val; rw [h2]; omega

/-- The tile at point `t`: entry (p, q) is the squared distance of x's row 1024 r + p and y's row 2048 c + q. -/
theorem tile_pt (t : Fin cfg0.N) (p : Fin 1024) (q : Fin 2048) :
    tile (F := Ideal) (iblk m c 0 t) (iblk m c 1 t) (ix2 p q)
      = kd m c (t.val / 8) (1024 * (t.val % 8 / 2) + p.val) (2048 * (t.val % 2) + q.val) := by
  rw [tile_apply (iblk m c 0 t) (iblk m c 1 t) p q]
  unfold kd
  exact congrArg₂ (distAdd _) (funext fun d => x_blk m c t p d) (funext fun d => y_blk m c t d q)

end Cert.KernelIdeal.Chamfer

end
-- ==== Proof.Steps.lean ====
/-
  What the two scratch accumulators hold after each grid point, point by point. After point t = (b, r, c):
    the row scratch at p is the least of kd b (1024 r + p) j over the rows j < 2048 (c + 1) of y;
    the column scratch at column j is the least of kd b i j over the rows i of x met so far for j's half:
      i < 1024 (r + 1) if j's half has been visited in this sweep (j / 2048 ≤ c), else i < 1024 r.
  The first point of a batch seeds the column scratch with +inf, every point with c = 0 re-seeds the row scratch.
  This module states each case's step; the induction over the points is the next one.
-/
import proofs.«117250_j66623532696128_2_alg».proof.Proof.Blocks

noncomputable section

open Idealize.ShloMosaic Idealize.ShloMosaic.TcCoe Idealize.SL.Sem Idealize.ShloMosaic.ValueIdx

namespace Cert.KernelIdeal.Chamfer

open Cert.KernelIdeal Cert.KernelIdeal.Gen Cert.Chamfer

variable (m : (ℓ : Loc nD τ sig) → Buf (Elt Ideal) ℓ) (c : Dev nD)

/-- Case A (the first point of a batch), the column scratch: on the half the point works on, the least over the
    point's 1024 rows of x (from +inf); elsewhere +inf. -/
theorem col_pt_A (t : Fin cfg0.N) (h0 : t.val % 8 = 0) (h1 : t.val % 2 = 0) (h2 : ¬t.val % 2 = 1) (h3 : ¬t.val % 8 = 7) (j : Fin 4096) :
    (outsAt0 m c t.val t.isLt).2.2.1 (ix2 (0 : Fin 1) j)
      = if 2048 * (t.val % 2) ≤ j.val ∧ j.val < 2048 * (t.val % 2) + 2048
        then min ⊤ (minAll fun p : Fin 1024 => kd m c (t.val / 8) (1024 * (t.val % 8 / 2) + p.val) j.val)
        else ⊤ := by
  have hj4 := j.isLt
  rw [outsAt0_A m c t h0 h1 h2 h3]
  dsimp only
  refine (congrFun (col_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t)) (ix2 (0 : Fin 1) j)).trans ?_
  split_ifs with hj
  · obtain ⟨q, hq, rfl⟩ : ∃ (q : Fin 2048) (hq : 2048 * (t.val % 2) + q.val < 4096), j = ⟨2048 * (t.val % 2) + q.val, hq⟩ :=
      ⟨⟨j.val - 2048 * (t.val % 2), by omega⟩, by show 2048 * (t.val % 2) + (j.val - 2048 * (t.val % 2)) < 4096; omega,
        Fin.ext (by show j.val = 2048 * (t.val % 2) + (j.val - 2048 * (t.val % 2)); omega)⟩
    refine (carry_in scM0_0 _ (grid0.coords t) _ _ _ (off_pt t) q hq).trans ?_
    refine (colStep_apply (iblk m c 0 t) (iblk m c 1 t) _ q).trans ?_
    rw [half_apply (F := Ideal) (grid0.coords t) (k0_pay6 (F := Ideal)) _ (off_pt t) q hq, pay6_apply]
    exact congrArg (min _) (minAll_congr fun p => tile_pt m c t p q)
  · refine (carry_out scM0_0 _ (grid0.coords t) _ _ _ (off_pt t) j (by omega)).trans ?_
    refine (congrFun (read_inf (F := Ideal) scM0_0) (ix2 (0 : Fin 1) j)).trans ?_
    exact pay6_apply _

/-- Case B, the column scratch after point `t`: on the half the point works on, the smaller of what the point before
    left and the least over the point's 1024 rows of x; elsewhere what the point before left. -/
theorem col_pt_B (t : Fin cfg0.N) (h0 : ¬t.val % 8 = 0) (h1 : ¬t.val % 2 = 0) (h2 : t.val % 2 = 1) (h3 : ¬t.val % 8 = 7) (j : Fin 4096) :
    (outsAt0 m c t.val t.isLt).2.2.1 (ix2 (0 : Fin 1) j)
      = if 2048 * (t.val % 2) ≤ j.val ∧ j.val < 2048 * (t.val % 2) + 2048
        then min ((outsAt0 m c (t.val - 1) (Nat.lt_of_le_of_lt (Nat.sub_le _ _) t.isLt)).2.2.1 (ix2 (0 : Fin 1) j)) (minAll fun p : Fin 1024 => kd m c (t.val / 8) (1024 * (t.val % 8 / 2) + p.val) j.val)
        else (outsAt0 m c (t.val - 1) (Nat.lt_of_le_of_lt (Nat.sub_le _ _) t.isLt)).2.2.1 (ix2 (0 : Fin 1) j) := by
  have hj4 := j.isLt
  rw [outsAt0_B m c t h0 h1 h2 h3]
  dsimp only
  refine (congrFun (col_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 (0 : Fin 1) j)).trans ?_
  split_ifs with hj
  · obtain ⟨q, hq, rfl⟩ : ∃ (q : Fin 2048) (hq : 2048 * (t.val % 2) + q.val < 4096), j = ⟨2048 * (t.val % 2) + q.val, hq⟩ :=
      ⟨⟨j.val - 2048 * (t.val % 2), by omega⟩, by show 2048 * (t.val % 2) + (j.val - 2048 * (t.val % 2)) < 4096; omega,
        Fin.ext (by show j.val = 2048 * (t.val % 2) + (j.val - 2048 * (t.val % 2)); omega)⟩
    refine (carry_in scM0_0 _ (grid0.coords t) _ [] _ (off_pt t) q hq).trans ?_
    refine (colStep_apply (iblk m c 0 t) (iblk m c 1 t) _ q).trans ?_
    rw [half_apply (grid0.coords t) (outsAt0 m c (t.val - 1) (Nat.lt_of_le_of_lt (Nat.sub_le _ _) t.isLt)).2.2.1 _ (off_pt t) q hq]
    exact congrArg (min _) (minAll_congr fun p => tile_pt m c t p q)
  · refine (carry_out scM0_0 _ (grid0.coords t) _ [] _ (off_pt t) j (by omega)).trans ?_
    rw [View.writes_nil, (Memref.isWhole_whole _).read_unread]

/-- Case C, the column scratch after point `t`: on the half the point works on, the smaller of what the point before
    left and the least over the point's 1024 rows of x; elsewhere what the point before left. -/
theorem col_pt_C (t : Fin cfg0.N) (h0 : ¬t.val % 8 = 0) (h1 : t.val % 2 = 0) (h2 : ¬t.val % 2 = 1) (h3 : ¬t.val % 8 = 7) (j : Fin 4096) :
    (outsAt0 m c t.val t.isLt).2.2.1 (ix2 (0 : Fin 1) j)
      = if 2048 * (t.val % 2) ≤ j.val ∧ j.val < 2048 * (t.val % 2) + 2048
        then min ((outsAt0 m c (t.val - 1) (Nat.lt_of_le_of_lt (Nat.sub_le _ _) t.isLt)).2.2.1 (ix2 (0 : Fin 1) j)) (minAll fun p : Fin 1024 => kd m c (t.val / 8) (1024 * (t.val % 8 / 2) + p.val) j.val)
        else (outsAt0 m c (t.val - 1) (Nat.lt_of_le_of_lt (Nat.sub_le _ _) t.isLt)).2.2.1 (ix2 (0 : Fin 1) j) := by
  have hj4 := j.isLt
  rw [outsAt0_C m c t h0 h1 h2 h3]
  dsimp only
  refine (congrFun (col_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1) (ix2 (0 : Fin 1) j)).trans ?_
  split_ifs with hj
  · obtain ⟨q, hq, rfl⟩ : ∃ (q : Fin 2048) (hq : 2048 * (t.val % 2) + q.val < 4096), j = ⟨2048 * (t.val % 2) + q.val, hq⟩ :=
      ⟨⟨j.val - 2048 * (t.val % 2), by omega⟩, by show 2048 * (t.val % 2) + (j.val - 2048 * (t.val % 2)) < 4096; omega,
        Fin.ext (by show j.val = 2048 * (t.val % 2) + (j.val - 2048 * (t.val % 2)); omega)⟩
    refine (carry_in scM0_0 _ (grid0.coords t) _ [] _ (off_pt t) q hq).trans ?_
    refine (colStep_apply (iblk m c 0 t) (iblk m c 1 t) _ q).trans ?_
    rw [half_apply (grid0.coords t) (outsAt0 m c (t.val - 1) (Nat.lt_of_le_of_lt (Nat.sub_le _ _) t.isLt)).2.2.1 _ (off_pt t) q hq]
    exact congrArg (min _) (minAll_congr fun p => tile_pt m c t p q)
  · refine (carry_out scM0_0 _ (grid0.coords t) _ [] _ (off_pt t) j (by omega)).trans ?_
    rw [View.writes_nil, (Memref.isWhole_whole _).read_unread]

/-- Case D, the column scratch after point `t`: on the half the point works on, the smaller of what the point before
    left and the least over the point's 1024 rows of x; elsewhere what the point before left. -/
theorem col_pt_D (t : Fin cfg0.N) (h0 : ¬t.val % 8 = 0) (h1 : ¬t.val % 2 = 0) (h2 : t.val % 2 = 1) (h3 : t.val % 8 = 7) (j : Fin 4096) :
    (outsAt0 m c t.val t.isLt).2.2.1 (ix2 (0 : Fin 1) j)
      = if 2048 * (t.val % 2) ≤ j.val ∧ j.val < 2048 * (t.val % 2) + 2048
        then min ((outsAt0 m c (t.val - 1) (Nat.lt_of_le_of_lt (Nat.sub_le _ _) t.isLt)).2.2.1 (ix2 (0 : Fin 1) j)) (minAll fun p : Fin 1024 => kd m c (t.val / 8) (1024 * (t.val % 8 / 2) + p.val) j.val)
        else (outsAt0 m c (t.val - 1) (Nat.lt_of_le_of_lt (Nat.sub_le _ _) t.isLt)).2.2.1 (ix2 (0 : Fin 1) j) := by
  have hj4 := j.isLt
  rw [outsAt0_D m c t h0 h1 h2 h3]
  dsimp only
  refine (congrFun (col_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 (0 : Fin 1) j)).trans ?_
  split_ifs with hj
  · obtain ⟨q, hq, rfl⟩ : ∃ (q : Fin 2048) (hq : 2048 * (t.val % 2) + q.val < 4096), j = ⟨2048 * (t.val % 2) + q.val, hq⟩ :=
      ⟨⟨j.val - 2048 * (t.val % 2), by omega⟩, by show 2048 * (t.val % 2) + (j.val - 2048 * (t.val % 2)) < 4096; omega,
        Fin.ext (by show j.val = 2048 * (t.val % 2) + (j.val - 2048 * (t.val % 2)); omega)⟩
    refine (carry_in scM0_0 _ (grid0.coords t) _ [] _ (off_pt t) q hq).trans ?_
    refine (colStep_apply (iblk m c 0 t) (iblk m c 1 t) _ q).trans ?_
    rw [half_apply (grid0.coords t) (outsAt0 m c (t.val - 1) (Nat.lt_of_le_of_lt (Nat.sub_le _ _) t.isLt)).2.2.1 _ (off_pt t) q hq]
    exact congrArg (min _) (minAll_congr fun p => tile_pt m c t p q)
  · refine (carry_out scM0_0 _ (grid0.coords t) _ [] _ (off_pt t) j (by omega)).trans ?_
    rw [View.writes_nil, (Memref.isWhole_whole _).read_unread]

/-- Case A, the row scratch after point `t`: re-seeded, so the least over the point's 2048 rows of y (from +inf). -/
theorem row_pt_A (t : Fin cfg0.N) (h0 : t.val % 8 = 0) (h1 : t.val % 2 = 0) (h2 : ¬t.val % 2 = 1) (h3 : ¬t.val % 8 = 7) (p : Fin 1024) :
    (outsAt0 m c t.val t.isLt).2.2.2 (ix2 (0 : Fin 1) p)
      = min ⊤ (minAll fun q : Fin 2048 => kd m c (t.val / 8) (1024 * (t.val % 8 / 2) + p.val) (2048 * (t.val % 2) + q.val)) := by
  rw [outsAt0_A m c t h0 h1 h2 h3]
  dsimp only
  refine (congrFun (row_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t)) (ix2 (0 : Fin 1) p)).trans ?_
  refine (rowStep_apply (iblk m c 0 t) (iblk m c 1 t) _ p).trans ?_
  rw [pay7_apply]
  exact congrArg (min _) (minAll_congr fun q => tile_pt m c t p q)

/-- Case C, the row scratch after point `t`: re-seeded, so the least over the point's 2048 rows of y (from +inf). -/
theorem row_pt_C (t : Fin cfg0.N) (h0 : ¬t.val % 8 = 0) (h1 : t.val % 2 = 0) (h2 : ¬t.val % 2 = 1) (h3 : ¬t.val % 8 = 7) (p : Fin 1024) :
    (outsAt0 m c t.val t.isLt).2.2.2 (ix2 (0 : Fin 1) p)
      = min ⊤ (minAll fun q : Fin 2048 => kd m c (t.val / 8) (1024 * (t.val % 8 / 2) + p.val) (2048 * (t.val % 2) + q.val)) := by
  rw [outsAt0_C m c t h0 h1 h2 h3]
  dsimp only
  refine (congrFun (row_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1) (ix2 (0 : Fin 1) p)).trans ?_
  refine (rowStep_apply (iblk m c 0 t) (iblk m c 1 t) _ p).trans ?_
  rw [pay7_apply]
  exact congrArg (min _) (minAll_congr fun q => tile_pt m c t p q)

/-- Case B, the row scratch after point `t`: the smaller of what the point before left and the least over the
    point's 2048 rows of y. The row output's staging buffer holds the same values. -/
theorem row_pt_B (t : Fin cfg0.N) (h0 : ¬t.val % 8 = 0) (h1 : ¬t.val % 2 = 0) (h2 : t.val % 2 = 1) (h3 : ¬t.val % 8 = 7) (p : Fin 1024) :
    (outsAt0 m c t.val t.isLt).2.2.2 (ix2 (0 : Fin 1) p)
      = min ((outsAt0 m c (t.val - 1) (Nat.lt_of_le_of_lt (Nat.sub_le _ _) t.isLt)).2.2.2 (ix2 (0 : Fin 1) p)) (minAll fun q : Fin 2048 => kd m c (t.val / 8) (1024 * (t.val % 8 / 2) + p.val) (2048 * (t.val % 2) + q.val)) := by
  rw [outsAt0_B m c t h0 h1 h2 h3]
  dsimp only
  refine (congrFun (row_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 (0 : Fin 1) p)).trans ?_
  refine (rowStep_apply (iblk m c 0 t) (iblk m c 1 t) _ p).trans ?_
  exact congrArg (min _) (minAll_congr fun q => tile_pt m c t p q)

theorem out3_pt_B (t : Fin cfg0.N) (h0 : ¬t.val % 8 = 0) (h1 : ¬t.val % 2 = 0) (h2 : t.val % 2 = 1) (h3 : ¬t.val % 8 = 7) (p : Fin 1024) :
    (outsAt0 m c t.val t.isLt).2.1 (ix3 (0 : Fin 1) (0 : Fin 1) p) = (outsAt0 m c t.val t.isLt).2.2.2 (ix2 (0 : Fin 1) p) := by
  rw [outsAt0_B m c t h0 h1 h2 h3]
  dsimp only
  refine (congrFun (out3_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) (0 : Fin 1) p)).trans ?_
  refine (pay4_apply _ p).trans ?_
  exact (congrFun (row_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 (0 : Fin 1) p)).symm

/-- Case D, the row scratch after point `t`: the smaller of what the point before left and the least over the
    point's 2048 rows of y. The row output's staging buffer holds the same values. -/
theorem row_pt_D (t : Fin cfg0.N) (h0 : ¬t.val % 8 = 0) (h1 : ¬t.val % 2 = 0) (h2 : t.val % 2 = 1) (h3 : t.val % 8 = 7) (p : Fin 1024) :
    (outsAt0 m c t.val t.isLt).2.2.2 (ix2 (0 : Fin 1) p)
      = min ((outsAt0 m c (t.val - 1) (Nat.lt_of_le_of_lt (Nat.sub_le _ _) t.isLt)).2.2.2 (ix2 (0 : Fin 1) p)) (minAll fun q : Fin 2048 => kd m c (t.val / 8) (1024 * (t.val % 8 / 2) + p.val) (2048 * (t.val % 2) + q.val)) := by
  rw [outsAt0_D m c t h0 h1 h2 h3]
  dsimp only
  refine (congrFun (row_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 (0 : Fin 1) p)).trans ?_
  refine (rowStep_apply (iblk m c 0 t) (iblk m c 1 t) _ p).trans ?_
  exact congrArg (min _) (minAll_congr fun q => tile_pt m c t p q)

theorem out3_pt_D (t : Fin cfg0.N) (h0 : ¬t.val % 8 = 0) (h1 : ¬t.val % 2 = 0) (h2 : t.val % 2 = 1) (h3 : t.val % 8 = 7) (p : Fin 1024) :
    (outsAt0 m c t.val t.isLt).2.1 (ix3 (0 : Fin 1) (0 : Fin 1) p) = (outsAt0 m c t.val t.isLt).2.2.2 (ix2 (0 : Fin 1) p) := by
  rw [outsAt0_D m c t h0 h1 h2 h3]
  dsimp only
  refine (congrFun (out3_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) (0 : Fin 1) p)).trans ?_
  refine (pay4_apply _ p).trans ?_
  exact (congrFun (row_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 (0 : Fin 1) p)).symm

/-- Case D (the last point of a batch): the column output's staging buffer holds the column scratch. -/
theorem out2_pt_D (t : Fin cfg0.N) (h0 : ¬t.val % 8 = 0) (h1 : ¬t.val % 2 = 0) (h2 : t.val % 2 = 1) (h3 : t.val % 8 = 7) (j : Fin 4096) :
    (outsAt0 m c t.val t.isLt).1 (ix3 (0 : Fin 1) (0 : Fin 1) j) = (outsAt0 m c t.val t.isLt).2.2.1 (ix2 (0 : Fin 1) j) := by
  rw [outsAt0_D m c t h0 h1 h2 h3]
  dsimp only
  refine (congrFun (out2_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) (0 : Fin 1) j)).trans ?_
  exact pay5_apply _ j

end Cert.KernelIdeal.Chamfer

end
-- ==== Proof.Accum.lean ====
/-
  The two scratch accumulators after every grid point, by induction on the point, and from it what the two outputs
  hold where they are written back. With t = (b, r, c) = (t / 8, t % 8 / 2, t % 2):
    column scratch at j  =  least of kd b i j over i < 1024 (r + [j / 2048 ≤ c]),
    row scratch at p     =  least of kd b (1024 r + p) j over j < 2048 (c + 1).
  At a point with c = 1 the row output holds the row scratch, whose bound is the whole extent 4096; at the last point
  of a batch (r = 3, c = 1) the column output holds the column scratch, whose bound is 4096 for every column.
-/
import proofs.«117250_j66623532696128_2_alg».proof.Proof.Steps

noncomputable section

open Idealize.ShloMosaic Idealize.ShloMosaic.TcCoe Idealize.SL.Sem Idealize.ShloMosaic.ValueIdx

namespace Cert.KernelIdeal.Chamfer

open Cert.KernelIdeal Cert.KernelIdeal.Gen Cert.Chamfer

variable (m : (ℓ : Loc nD τ sig) → Buf (Elt Ideal) ℓ) (c : Dev nD)

/-- Column j's distances to every row of x in batch b; row i's distances to every row of y in batch b. -/
def colF (b j : ℕ) : Fin 4096 → EReal := fun i => kd m c b i.val j
def rowF (b i : ℕ) : Fin 4096 → EReal := fun j => kd m c b i j.val

/-- How many rows of x column `j`'s accumulator has met after point `n`. -/
def colCnt (n j : ℕ) : ℕ := 1024 * (n % 8 / 2 + (if j / 2048 ≤ n % 2 then 1 else 0))

theorem cnt_in (t j : ℕ) (ht : t < 64) (hj : j < 4096) (hne : ¬t % 8 = 0)
    (hh : 2048 * (t % 2) ≤ j ∧ j < 2048 * (t % 2) + 2048) :
    colCnt (t - 1) j = 1024 * (t % 8 / 2) ∧ colCnt t j = 1024 * (t % 8 / 2) + 1024 := by
  unfold colCnt
  constructor <;> split_ifs <;> omega

theorem cnt_out (t j : ℕ) (ht : t < 64) (hj : j < 4096) (hne : ¬t % 8 = 0)
    (hh : ¬(2048 * (t % 2) ≤ j ∧ j < 2048 * (t % 2) + 2048)) : colCnt (t - 1) j = colCnt t j := by
  unfold colCnt
  split_ifs <;> omega

/-- One more block: from the least below `a` to the least below `a + K`. -/
theorem step_min {N K : ℕ} (F : Fin N → EReal) (a a' : ℕ) (x : EReal) (g : Fin K → EReal) (hx : x = minBelow F a)
    (ha : a' = a + K) (hle : a + K ≤ N) (hg : ∀ p : Fin K, g p = F ⟨a + p.val, by have := p.isLt; omega⟩) :
    min x (minAll g) = minBelow F a' := by
  subst ha hx
  rw [minBelow_add F a K hle]
  exact congrArg (min _) (minAll_congr hg)

/-- What the scratch accumulators hold after point `t`. -/
def Inv (t : Fin cfg0.N) : Prop :=
  (∀ j : Fin 4096, (outsAt0 m c t.val t.isLt).2.2.1 (ix2 (0 : Fin 1) j)
      = minBelow (colF m c (t.val / 8) j.val) (colCnt t.val j.val))
  ∧ (∀ p : Fin 1024, (outsAt0 m c t.val t.isLt).2.2.2 (ix2 (0 : Fin 1) p)
      = minBelow (rowF m c (t.val / 8) (1024 * (t.val % 8 / 2) + p.val)) (2048 * (t.val % 2 + 1)))

/-- The column scratch at a point that is not the first of its batch, from the point before. -/
theorem col_carry (t : Fin cfg0.N) (hne : ¬t.val % 8 = 0) (hprev : Inv m c (⟨t.val - 1, (Nat.lt_of_le_of_lt (Nat.sub_le _ _) t.isLt)⟩ : Fin cfg0.N)) (j : Fin 4096)
    (hpt : (outsAt0 m c t.val t.isLt).2.2.1 (ix2 (0 : Fin 1) j)
      = if 2048 * (t.val % 2) ≤ j.val ∧ j.val < 2048 * (t.val % 2) + 2048
        then min ((outsAt0 m c (t.val - 1) (Nat.lt_of_le_of_lt (Nat.sub_le _ _) t.isLt)).2.2.1 (ix2 (0 : Fin 1) j)) (minAll fun p : Fin 1024 => kd m c (t.val / 8) (1024 * (t.val % 8 / 2) + p.val) j.val)
        else (outsAt0 m c (t.val - 1) (Nat.lt_of_le_of_lt (Nat.sub_le _ _) t.isLt)).2.2.1 (ix2 (0 : Fin 1) j)) :
    (outsAt0 m c t.val t.isLt).2.2.1 (ix2 (0 : Fin 1) j) = minBelow (colF m c (t.val / 8) j.val) (colCnt t.val j.val) := by
  have hN : cfg0.N = 64 := N_0
  have ht := t.isLt
  have hj := j.isLt
  have ih : (outsAt0 m c (t.val - 1) (Nat.lt_of_le_of_lt (Nat.sub_le _ _) t.isLt)).2.2.1 (ix2 (0 : Fin 1) j) = minBelow (colF m c ((t.val - 1) / 8) j.val) (colCnt (t.val - 1) j.val) := hprev.1 j
  rw [show (t.val - 1) / 8 = t.val / 8 from by omega] at ih
  rw [hpt]
  split_ifs with hh
  · obtain ⟨e1, e2⟩ := cnt_in t.val j.val (by omega) hj hne hh
    rw [e1] at ih
    refine step_min (colF m c (t.val / 8) j.val) (1024 * (t.val % 8 / 2)) _ _ _ ih e2 (by omega) (fun p => rfl)
  · rw [ih, cnt_out t.val j.val (by omega) hj hne hh]

/-- The row scratch at a point with c = 0 (re-seeded). -/
theorem row_reset (t : Fin cfg0.N) (hc : t.val % 2 = 0) (p : Fin 1024)
    (hpt : (outsAt0 m c t.val t.isLt).2.2.2 (ix2 (0 : Fin 1) p)
      = min ⊤ (minAll fun q : Fin 2048 => kd m c (t.val / 8) (1024 * (t.val % 8 / 2) + p.val) (2048 * (t.val % 2) + q.val))) :
    (outsAt0 m c t.val t.isLt).2.2.2 (ix2 (0 : Fin 1) p)
      = minBelow (rowF m c (t.val / 8) (1024 * (t.val % 8 / 2) + p.val)) (2048 * (t.val % 2 + 1)) := by
  rw [hpt]
  refine step_min (rowF m c (t.val / 8) (1024 * (t.val % 8 / 2) + p.val)) 0 _ ⊤ _ (minBelow_zero _).symm (by omega) (by omega)
    (fun q => ?_)
  show kd m c _ _ (2048 * (t.val % 2) + q.val) = kd m c _ _ (0 + q.val)
  rw [show 2048 * (t.val % 2) + q.val = 0 + q.val from by omega]

/-- The row scratch at a point with c = 1, from the point before (same batch, same block of x, c = 0). -/
theorem row_carry (t : Fin cfg0.N) (hc : t.val % 2 = 1) (hprev : Inv m c (⟨t.val - 1, (Nat.lt_of_le_of_lt (Nat.sub_le _ _) t.isLt)⟩ : Fin cfg0.N)) (p : Fin 1024)
    (hpt : (outsAt0 m c t.val t.isLt).2.2.2 (ix2 (0 : Fin 1) p)
      = min ((outsAt0 m c (t.val - 1) (Nat.lt_of_le_of_lt (Nat.sub_le _ _) t.isLt)).2.2.2 (ix2 (0 : Fin 1) p)) (minAll fun q : Fin 2048 => kd m c (t.val / 8) (1024 * (t.val % 8 / 2) + p.val) (2048 * (t.val % 2) + q.val))) :
    (outsAt0 m c t.val t.isLt).2.2.2 (ix2 (0 : Fin 1) p)
      = minBelow (rowF m c (t.val / 8) (1024 * (t.val % 8 / 2) + p.val)) (2048 * (t.val % 2 + 1)) := by
  have hN : cfg0.N = 64 := N_0
  have ht := t.isLt
  have ih : (outsAt0 m c (t.val - 1) (Nat.lt_of_le_of_lt (Nat.sub_le _ _) t.isLt)).2.2.2 (ix2 (0 : Fin 1) p)
      = minBelow (rowF m c ((t.val - 1) / 8) (1024 * ((t.val - 1) % 8 / 2) + p.val)) (2048 * ((t.val - 1) % 2 + 1)) := hprev.2 p
  rw [show (t.val - 1) / 8 = t.val / 8 from by omega, show (t.val - 1) % 8 / 2 = t.val % 8 / 2 from by omega,
    show 2048 * ((t.val - 1) % 2 + 1) = 2048 from by omega] at ih
  rw [hpt]
  refine step_min (rowF m c (t.val / 8) (1024 * (t.val % 8 / 2) + p.val)) 2048 _ _ _ ih (by omega) (by omega) (fun q => ?_)
  show kd m c _ _ (2048 * (t.val % 2) + q.val) = kd m c _ _ (2048 + q.val)
  rw [show 2048 * (t.val % 2) + q.val = 2048 + q.val from by omega]

/-- The first point of a batch. -/
theorem inv_A (t : Fin cfg0.N) (h0 : t.val % 8 = 0) : Inv m c t := by
  have hN : cfg0.N = 64 := N_0
  have ht := t.isLt
  have h1 : t.val % 2 = 0 := by omega
  have h2 : ¬t.val % 2 = 1 := by omega
  have h3 : ¬t.val % 8 = 7 := by omega
  refine ⟨fun j => ?_, fun p => row_reset m c t h1 p (row_pt_A m c t h0 h1 h2 h3 p)⟩
  have hj := j.isLt
  rw [col_pt_A m c t h0 h1 h2 h3 j]
  split_ifs with hh
  · refine step_min (colF m c (t.val / 8) j.val) 0 _ ⊤ _ (minBelow_zero _).symm ?_ (by omega) (fun p => ?_)
    · unfold colCnt; rw [if_pos (by omega)]; omega
    · show kd m c _ (1024 * (t.val % 8 / 2) + p.val) _ = kd m c _ (0 + p.val) _
      rw [show 1024 * (t.val % 8 / 2) + p.val = 0 + p.val from by omega]
  · rw [show colCnt t.val j.val = 0 from by unfold colCnt; rw [if_neg (by omega)]; omega]
    exact (minBelow_zero _).symm

/-- Every point, by induction on its position. -/
theorem inv : ∀ (n : ℕ) (t : Fin cfg0.N), t.val = n → Inv m c t := by
  intro n
  induction n using Nat.strong_induction_on with
  | _ n ih =>
    intro t htn
    have hN : cfg0.N = 64 := N_0
    have ht := t.isLt
    by_cases h0 : t.val % 8 = 0
    · exact inv_A m c t h0
    · have hprev : Inv m c (⟨t.val - 1, (Nat.lt_of_le_of_lt (Nat.sub_le _ _) t.isLt)⟩ : Fin cfg0.N) := ih (t.val - 1) (by omega) (⟨t.val - 1, (Nat.lt_of_le_of_lt (Nat.sub_le _ _) t.isLt)⟩ : Fin cfg0.N) rfl
      by_cases h1 : t.val % 2 = 0
      · have h2 : ¬t.val % 2 = 1 := by omega
        have h3 : ¬t.val % 8 = 7 := by omega
        exact ⟨fun j => col_carry m c t h0 hprev j (col_pt_C m c t h0 h1 h2 h3 j),
          fun p => row_reset m c t h1 p (row_pt_C m c t h0 h1 h2 h3 p)⟩
      · have h2 : t.val % 2 = 1 := by omega
        by_cases h3 : t.val % 8 = 7
        · exact ⟨fun j => col_carry m c t h0 hprev j (col_pt_D m c t h0 h1 h2 h3 j),
            fun p => row_carry m c t h2 hprev p (row_pt_D m c t h0 h1 h2 h3 p)⟩
        · exact ⟨fun j => col_carry m c t h0 hprev j (col_pt_B m c t h0 h1 h2 h3 j),
            fun p => row_carry m c t h2 hprev p (row_pt_B m c t h0 h1 h2 h3 p)⟩

/-- Where the row output is written back (c = 1) it holds, at p, the least of kd b (1024 r + p) j over EVERY row j of y. -/
theorem row_final (t : Fin cfg0.N) (h2 : t.val % 2 = 1) (p : Fin 1024) :
    (outsAt0 m c t.val t.isLt).2.1 (ix3 (0 : Fin 1) (0 : Fin 1) p)
      = minAll (rowF m c (t.val / 8) (1024 * (t.val % 8 / 2) + p.val)) := by
  have hN : cfg0.N = 64 := N_0
  have ht := t.isLt
  have h0 : ¬t.val % 8 = 0 := by omega
  have h1 : ¬t.val % 2 = 0 := by omega
  have e : (outsAt0 m c t.val t.isLt).2.1 (ix3 (0 : Fin 1) (0 : Fin 1) p) = (outsAt0 m c t.val t.isLt).2.2.2 (ix2 (0 : Fin 1) p) := by
    by_cases h3 : t.val % 8 = 7
    · exact out3_pt_D m c t h0 h1 h2 h3 p
    · exact out3_pt_B m c t h0 h1 h2 h3 p
  rw [e, (inv m c t.val t rfl).2 p, show 2048 * (t.val % 2 + 1) = 4096 from by omega]
  exact minBelow_full _

/-- Where the column output is written back (the last point of a batch) it holds, at j, the least of kd b i j over
    EVERY row i of x. -/
theorem col_final (t : Fin cfg0.N) (h3 : t.val % 8 = 7) (j : Fin 4096) :
    (outsAt0 m c t.val t.isLt).1 (ix3 (0 : Fin 1) (0 : Fin 1) j) = minAll (colF m c (t.val / 8) j.val) := by
  have hN : cfg0.N = 64 := N_0
  have ht := t.isLt
  have hj := j.isLt
  rw [out2_pt_D m c t (by omega) (by omega) (by omega) h3 j, (inv m c t.val t rfl).1 j,
    show colCnt t.val j.val = 4096 from by unfold colCnt; rw [if_pos (by omega)]; omega]
  exact minBelow_full _

end Cert.KernelIdeal.Chamfer

end
-- ==== Proof.Arrays.lean ====
/-
  The two result arrays of the region, whole. The column output [8, 1, 4096] is written back once per batch, at the
  batch's last point, block (b, 0, 0) of extents [1, 1, 4096]; the row output [8, 1, 4096] at every point with c = 1,
  block (b, 0, r) of extents [1, 1, 1024]. Each written block is the matching block of ONE function of the array
  index, and the written blocks cover the array, so the arrays end at those functions:
    column output at (b, 0, j)  =  least over every row i of x of kd b i j,
    row output at (b, 0, i)     =  least over every row j of y of kd b i j.
-/
import proofs.«117250_j66623532696128_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Chamfer

open Cert.KernelIdeal Cert.KernelIdeal.Gen Cert.Chamfer

variable (m : (ℓ : Loc nD τ sig) → Buf (Elt Ideal) ℓ) (c : Dev nD)

/-- The column minima as one function of the output's index. -/
def colMin : S8x1x4096.Idx → EReal := fun y => minAll (colF m c (y 0).val (y 2).val)
/-- The row minima as one function of the output's index. -/
def rowMin : S8x1x4096.Idx → EReal := fun y => minAll (rowF m c (y 0).val (y 2).val)

/-- What the write-back of the column output at the last point of a batch writes is that block of `colMin`. -/
theorem flushed_col (t : Fin cfg0.N) (hf : (cfg0.win 2).flush t = true) :
    (dats m 0 c).flushed 2 t = ((cfg0.win 2).blk t).view.read (Elt Ideal) (colMin m c) := by
  have h7 := (flush0_2 t).mp hf
  obtain ⟨i0, i1, i2⟩ := idx2 t
  funext y
  have hy0 : (y 0).val < 1 := (y 0).isLt
  have hy1 : (y 1).val < 1 := (y 1).isLt
  have hy2 : (y 2).val < 4096 := (y 2).isLt
  show (dats m 0 c).after 2 t ((cfg0.win 2).xinj (grid0.coords t) y) = _
  rw [after0_2, View.read_apply]
  have ex : (cfg0.win 2).xinj (grid0.coords t) y = ix3 (0 : Fin 1) (0 : Fin 1) (⟨(y 2).val, hy2⟩ : Fin 4096) :=
    funext fun a => Fin.ext (by
      match a with
      | ⟨0, _⟩ => show (y 0).val = 0; omega
      | ⟨1, _⟩ => show (y 1).val = 0; omega
      | ⟨2, _⟩ => rfl)
  rw [ex, col_final m c t h7 ⟨(y 2).val, hy2⟩]
  show _ = colMin m c (((cfg0.win 2).blk t).view.emb y)
  unfold colMin
  have e0 : ((((cfg0.win 2).blk t).view.emb y) 0).val = t.val / 8 := by
    show win0_2.index t 0 * 1 + 1 * (y 0).val = _; rw [i0]; omega
  have e2 : ((((cfg0.win 2).blk t).view.emb y) 2).val = (y 2).val := by
    show win0_2.index t 2 * 4096 + 1 * (y 2).val = _; rw [i2]; omega
  rw [e0, e2]

/-- What the write-back of the row output at a point with c = 1 writes is that block of `rowMin`. -/
theorem flushed_row (t : Fin cfg0.N) (hf : (cfg0.win 3).flush t = true) :
    (dats m 0 c).flushed 3 t = ((cfg0.win 3).blk t).view.read (Elt Ideal) (rowMin m c) := by
  have h2 := (flush0_3 t).mp hf
  obtain ⟨i0, i1, i2⟩ := idx3 t
  funext y
  have hy0 : (y 0).val < 1 := (y 0).isLt
  have hy1 : (y 1).val < 1 := (y 1).isLt
  have hy2 : (y 2).val < 1024 := (y 2).isLt
  show (dats m 0 c).after 3 t ((cfg0.win 3).xinj (grid0.coords t) y) = _
  rw [after0_3, View.read_apply]
  have ex : (cfg0.win 3).xinj (grid0.coords t) y = ix3 (0 : Fin 1) (0 : Fin 1) (⟨(y 2).val, hy2⟩ : Fin 1024) :=
    funext fun a => Fin.ext (by
      match a with
      | ⟨0, _⟩ => show (y 0).val = 0; omega
      | ⟨1, _⟩ => show (y 1).val = 0; omega
      | ⟨2, _⟩ => rfl)
  rw [ex, row_final m c t h2 ⟨(y 2).val, hy2⟩]
  show _ = rowMin m c (((cfg0.win 3).blk t).view.emb y)
  unfold rowMin
  have e0 : ((((cfg0.win 3).blk t).view.emb y) 0).val = t.val / 8 := by
    show win0_3.index t 0 * 1 + 1 * (y 0).val = _; rw [i0]; omega
  have e2 : ((((cfg0.win 3).blk t).view.emb y) 2).val = 1024 * (t.val % 8 / 2) + (y 2).val := by
    show win0_3.index t 2 * 1024 + 1 * (y 2).val = _; rw [i2]; omega
  rw [e0, e2]

/-- The column output ends at `colMin`: batch b's block is written at point 8 b + 7. -/
theorem final_col : (dats m 0 c).arrAt 2 cfg0.N = colMin m c :=
  (dats m 0 c).arrAt_eq_of_cover 2 (colMin m c) (flushed_col m c) fun i => by
    have hN : cfg0.N = 64 := N_0
    have hi0 : (i 0 : Nat) < 8 := (i 0).isLt
    have hi1 : (i 1 : Nat) < 1 := (i 1).isLt
    have hi2 : (i 2 : Nat) < 4096 := (i 2).isLt
    let t : Fin cfg0.N := ⟨8 * (i 0 : Nat) + 7, by omega⟩
    obtain ⟨i0, i1, i2⟩ := idx2 t
    have htv : t.val = 8 * (i 0 : Nat) + 7 := rfl
    refine ⟨t, (flush0_2 t).mpr (by omega), ?_⟩
    show i ∈ ((View.whole main_v1_0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [i0]; omega
    | ⟨1, _⟩ => show win0_2.index t 1 * 1 ≤ (i 1 : Nat) ∧ (i 1 : Nat) < win0_2.index t 1 * 1 + 1
                rw [i1]; omega
    | ⟨2, _⟩ => show win0_2.index t 2 * 4096 ≤ (i 2 : Nat) ∧ (i 2 : Nat) < win0_2.index t 2 * 4096 + 4096
                rw [i2]; omega

/-- The row output ends at `rowMin`: rows [1024 r, 1024 r + 1024) of batch b are written at point 8 b + 2 r + 1. -/
theorem final_row : (dats m 0 c).arrAt 3 cfg0.N = rowMin m c :=
  (dats m 0 c).arrAt_eq_of_cover 3 (rowMin m c) (flushed_row m c) fun i => by
    have hN : cfg0.N = 64 := N_0
    have hi0 : (i 0 : Nat) < 8 := (i 0).isLt
    have hi1 : (i 1 : Nat) < 1 := (i 1).isLt
    have hi2 : (i 2 : Nat) < 4096 := (i 2).isLt
    let t : Fin cfg0.N := ⟨8 * (i 0 : Nat) + 2 * ((i 2 : Nat) / 1024) + 1, by omega⟩
    obtain ⟨i0, i1, i2⟩ := idx3 t
    have htv : t.val = 8 * (i 0 : Nat) + 2 * ((i 2 : Nat) / 1024) + 1 := rfl
    refine ⟨t, (flush0_3 t).mpr (by omega), ?_⟩
    show i ∈ ((View.whole main_v1_1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [i0]; omega
    | ⟨1, _⟩ => show win0_3.index t 1 * 1 ≤ (i 1 : Nat) ∧ (i 1 : Nat) < win0_3.index t 1 * 1 + 1
                rw [i1]; omega
    | ⟨2, _⟩ => show win0_3.index t 2 * 1024 ≤ (i 2 : Nat) ∧ (i 2 : Nat) < win0_3.index t 2 * 1024 + 1024
                rw [i2]; omega

end Cert.KernelIdeal.Chamfer

end
-- ==== Proof.Tail.lean ====
/-
  The last lines of both programs, as one function: with cm the minima over the x index, rm the minima over the y
  index and x2, x3 the two masks (all [8, 4096]), it is (mean(x2 · cm) − mean(x3 · rm))², each mean the sum from 0
  divided by 32768. Both programs spell it with the same operations in the same order, so it is never opened.
-/
import Idealize.ShloMosaic.PureOps.Ideal

noncomputable section

namespace Cert.Chamfer

open Idealize.ShloMosaic

abbrev SB : Shape := ⟨2, ![8, 4096]⟩
abbrev S0 : Shape := ⟨0, ![]⟩

/-- (mean(x2 · cm) − mean(x3 · rm))². -/
def tail (hred : SB.ReducesTo [0, 1] S0) (hpos : 0 < S0.numel) (cm rm x2 x3 : FVec Ideal SB .f32) : FVec Ideal S0 .f32 :=
  mulf (subf (Host.divf (Host.reduceAdd (mulf x2 cm) (constant (F := Ideal) S0 .f32 0x00000000#32) hred hpos) (constant (F := Ideal) S0 .f32 0x47000000#32)) (Host.divf (Host.reduceAdd (mulf x3 rm) (constant (F := Ideal) S0 .f32 0x00000000#32) hred hpos) (constant (F := Ideal) S0 .f32 0x47000000#32)))
    (subf (Host.divf (Host.reduceAdd (mulf x2 cm) (constant (F := Ideal) S0 .f32 0x00000000#32) hred hpos) (constant (F := Ideal) S0 .f32 0x47000000#32)) (Host.divf (Host.reduceAdd (mulf x3 rm) (constant (F := Ideal) S0 .f32 0x00000000#32) hred hpos) (constant (F := Ideal) S0 .f32 0x47000000#32)))

end Cert.Chamfer

end
-- ==== Proof.Run.lean ====
/-
  The kernel's run, read: the program's result is the shared tail of the two result arrays of the region (each
  re-laid from [8, 1, 4096] to [8, 4096]) and the two masks, and the four arguments end unchanged. The lines after the
  region read the region's arrays where the region left them and the masks where the launch left them.
-/
import proofs.«117250_j66623532696128_2_alg».proof.Proof.Arrays
import proofs.«117250_j66623532696128_2_alg».proof.Proof.Tail
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Chamfer

open Cert.KernelIdeal Cert.KernelIdeal.Gen Cert.Chamfer

variable (m : (ℓ : Loc nD τ sig) → Buf (Elt Ideal) ℓ) (c : Dev nD)

/-- The program's result on core `c`. -/
def result : Buf (Elt Ideal) ((c.tc : Thread nD τ).loc main_v11) :=
  tail reducesTo_S8x4096_S_d0_1 h_S_ (shapeCast S8x4096 (colMin m c) shapeCasts_S8x1x4096_S8x4096)
    (shapeCast S8x4096 (rowMin m c) shapeCasts_S8x1x4096_S8x4096) (m ((c.tc : Thread nD τ).loc main_arg2)) (m ((c.tc : Thread nD τ).loc main_arg3))

/-- What the lines after the region leave in the result buffer. -/
theorem tail_eq : Pipeline.afterTail₀ cfgs (dats m) 0 (V0 m) [hostOps1] c main_v11 = result m c := by
  have a2 : Pipeline.withArrays (cfgs 0).spec c (V0 m c) (fun w => (dats m 0 c).arrAt w (cfgs 0).N) (Proc.tc.devRef main_arg2)
      = (m ((c.tc : Thread nD τ).loc main_arg2)) :=
    (Pipeline.withArrays_of_ne _ c (V0 m c) _ main_arg2 (by exact (by decide : ∀ w, Pipeline.arrRef spec0 w ≠ main_arg2))).trans
      (V_main_arg2 m c)
  have a3 : Pipeline.withArrays (cfgs 0).spec c (V0 m c) (fun w => (dats m 0 c).arrAt w (cfgs 0).N) (Proc.tc.devRef main_arg3)
      = (m ((c.tc : Thread nD τ).loc main_arg3)) :=
    (Pipeline.withArrays_of_ne _ c (V0 m c) _ main_arg3 (by exact (by decide : ∀ w, Pipeline.arrRef spec0 w ≠ main_arg3))).trans
      (V_main_arg3 m c)
  have o2 : Pipeline.withArrays (cfgs 0).spec c (V0 m c) (fun w => (dats m 0 c).arrAt w (cfgs 0).N) (Proc.tc.devRef main_v1_0)
      = colMin m c :=
    (Pipeline.withArrays_arr spec0 launch0.win.arr_inj c _ _ 2).trans (final_col m c)
  have o3 : Pipeline.withArrays (cfgs 0).spec c (V0 m c) (fun w => (dats m 0 c).arrAt w (cfgs 0).N) (Proc.tc.devRef main_v1_1)
      = rowMin m c :=
    (Pipeline.withArrays_arr spec0 launch0.win.arr_inj c _ _ 3).trans (final_row m c)
  unfold Pipeline.afterTail₀
  show StableHlo.after hostOps1 _ (Proc.devRef .tc main_v11) = _
  after_results
  rw [a2, a3, o2, o3]
  rfl

/-- Every weakly fair execution of the kernel's program terminates with the result at `result` and the arguments
    unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Chamfer

end
-- ==== Proof.RefValue.lean ====
/-
  The reference read at an index, at the ideal instance. Its pairwise table at (b, i, j) is
    ((0 + Σ_d x[b,i,d]²) + (0 + Σ_d y[b,j,d]²)) − 2 · Σ_d x[b,i,d] y[b,j,d],
  the squared distance with the cross term subtracted whole; its two min-reductions from +inf are, at (b, j), the
  least of the table over the x index i, and at (b, i), the least over the y index j.
-/
import proofs.«117250_j66623532696128_2_alg».proof.Proof.Gen.ReferenceIdeal.Read
import proofs.«117250_j66623532696128_2_alg».proof.Proof.MinFold
import proofs.«117250_j66623532696128_2_alg».proof.Proof.Dist
import proofs.«117250_j66623532696128_2_alg».proof.Proof.Consts

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Chamfer

/-- The pairwise table at (b, i, j): the squared distance of x's row i and y's row j, the cross term subtracted whole. -/
theorem pair_apply (x0 x1 : FVec Ideal S8x4096x3 .f32) (b : Fin 8) (i j : Fin 4096) :
    val_main_v12 (F := Ideal) x0 x1 (ix3 b i j)
      = distSub (Ideal.ofBits .f32 0x00000000#32) (Ideal.ofBits .f32 0x40000000#32)
          (fun d => x0 (ix3 b i d)) (fun d => x1 (ix3 b j d)) := by
  have e1 : ∀ k : Fin 3, idx_main_v1 (idx_main_v5 (idx_main_v7 (ix3 b i j))) k = ix3 b i k :=
    fun k => funext fun a => Fin.ext (by match a with | ⟨0, _⟩ => rfl | ⟨1, _⟩ => rfl | ⟨2, _⟩ => rfl)
  have e3 : ∀ k : Fin 3, idx_main_v3 (idx_main_v6 (idx_main_v8 (ix3 b i j))) k = ix3 b j k :=
    fun k => funext fun a => Fin.ext (by match a with | ⟨0, _⟩ => rfl | ⟨1, _⟩ => rfl | ⟨2, _⟩ => rfl)
  have el : ∀ k : Fin 3, lidx_main_v4 (ix3 b i j) k = ix3 b i k :=
    fun k => funext fun a => Fin.ext (by match a with | ⟨0, _⟩ => rfl | ⟨1, _⟩ => rfl | ⟨2, _⟩ => rfl)
  have er : ∀ k : Fin 3, ridx_main_v4 (ix3 b i j) k = ix3 b j k :=
    fun k => funext fun a => Fin.ext (by match a with | ⟨0, _⟩ => rfl | ⟨1, _⟩ => rfl | ⟨2, _⟩ => rfl)
  rw [val_main_v12_apply, val_main_v9_apply, val_main_v11_apply, val_main_v7_apply, val_main_v8_apply, val_main_v5_apply,
    val_main_v6_apply, val_main_v1_apply, val_main_v3_apply, val_main_v10_apply, val_main_v4_apply, val_main_cst_1_apply]
  unfold distSub
  simp only [e1, e3, el, er, val_main_v0_apply, val_main_v2_apply, val_main_cst_apply, val_main_cst_0_apply,
    Ideal.addf_def, Ideal.subf_def, Ideal.mulf_def, Ideal.ofBits_def]

set_option backward.isDefEq.respectTransparency.types false in
/-- Reducing the x index away: the source index over (b, j) with x index k is (b, k, j). -/
theorem lift_x (h : S8x4096x4096.Reduces [1] S8x4096) (b : Fin 8) (j : Fin 4096) (k : Fin 4096) :
    h.lift (ix2 b j) k = ix3 b k j := by
  funext a
  apply Fin.ext
  rw [Shape.Reduces.lift_val]
  unfold Shape.Reduces.liftVal
  match a with
  | ⟨0, _⟩ => rfl
  | ⟨1, _⟩ => rfl
  | ⟨2, _⟩ => rfl

set_option backward.isDefEq.respectTransparency.types false in
/-- Reducing the y index away: the source index over (b, i) with y index k is (b, i, k). -/
theorem lift_y (h : S8x4096x4096.Reduces [2] S8x4096) (b : Fin 8) (i : Fin 4096) (k : Fin 4096) :
    h.lift (ix2 b i) k = ix3 b i k := by
  funext a
  apply Fin.ext
  rw [Shape.Reduces.lift_val]
  unfold Shape.Reduces.liftVal
  match a with
  | ⟨0, _⟩ => rfl
  | ⟨1, _⟩ => rfl
  | ⟨2, _⟩ => rfl

/-- The reference's minimum over the x index, at (b, j). -/
theorem colRef_apply (x0 x1 : FVec Ideal S8x4096x3 .f32) (b : Fin 8) (j : Fin 4096) :
    val_main_v13 (F := Ideal) x0 x1 (ix2 b j) = minAll fun i : Fin 4096 => val_main_v12 (F := Ideal) x0 x1 (ix3 b i j) := by
  have h : S8x4096x4096.Reduces [1] S8x4096 := by decide
  unfold val_main_v13
  refine (Host.reduce_eq_fold_single (FloatOps.minimumf (F := Ideal) (φ := .f32)) (val_main_v12 (F := Ideal) x0 x1) (val_main_cst_2 (F := Ideal))
    reducesTo_S8x4096x4096_S8x4096_d1 h h_S_ (ix2 b j)).trans ?_
  show Finset.fold min (Ideal.ofBits .f32 0x7F800000#32)
      (fun k : Fin 4096 => val_main_v12 (F := Ideal) x0 x1 (h.lift (ix2 b j) k)) Finset.univ = _
  rw [ofBits_inf]
  unfold minAll
  simp only [lift_x]

/-- The reference's minimum over the y index, at (b, i). -/
theorem rowRef_apply (x0 x1 : FVec Ideal S8x4096x3 .f32) (b : Fin 8) (i : Fin 4096) :
    val_main_v17 (F := Ideal) x0 x1 (ix2 b i) = minAll fun j : Fin 4096 => val_main_v12 (F := Ideal) x0 x1 (ix3 b i j) := by
  have h : S8x4096x4096.Reduces [2] S8x4096 := by decide
  unfold val_main_v17
  refine (Host.reduce_eq_fold_single (FloatOps.minimumf (F := Ideal) (φ := .f32)) (val_main_v12 (F := Ideal) x0 x1) (val_main_cst_5 (F := Ideal))
    reducesTo_S8x4096x4096_S8x4096_d2 h h_S_ (ix2 b i)).trans ?_
  show Finset.fold min (Ideal.ofBits .f32 0x7F800000#32)
      (fun k : Fin 4096 => val_main_v12 (F := Ideal) x0 x1 (h.lift (ix2 b i) k)) Finset.univ = _
  rw [ofBits_inf]
  unfold minAll
  simp only [lift_y]

end Cert.ReferenceIdeal.RefValue

end
-- ==== Proof.Finite.lean ====
/-
  Finiteness, from the precondition. The precondition is the conjunction of four tests "every entry's absolute value
  is below +inf", one per input; the first two say that every entry of x and of y is a real number (neither +inf
  nor −inf): the absolute value of an extended real is below the top element only for a real.
-/
import proofs.«117250_j66623532696128_2_alg».proof.Defs
import proofs.«117250_j66623532696128_2_alg».proof.Proof.Gen.KernelIdeal
import proofs.«117250_j66623532696128_2_alg».proof.Proof.Gen.Pre_finite_inputs
import proofs.«117250_j66623532696128_2_alg».proof.Proof.Consts
import Idealize.ShloMosaic.Lib.ReduceAll
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Chamfer

open Cert.KernelIdeal Cert.Chamfer

theorem ofBool_eq_one (b : Bool) : BitVec.ofBool b = 1#1 ↔ b = true := by cases b <;> decide
theorem and1 : ∀ (a b : BitVec 1), IntOp.andi a b = 1#1 ↔ a = 1#1 ∧ b = 1#1 := by decide

instance : Subsingleton Cert.Pre_finite_inputs.S_.Idx := ⟨fun a b => funext fun d => d.elim0⟩

/-- An extended real whose absolute value is below +inf is a real number. -/
theorem real_of_abs_lt (x : EReal) (h : Ideal.cmp .olt (max x (-x)) (Ideal.ofBits .f32 0x7F800000#32) = 1#1) :
    ∃ r : ℝ, x = (r : EReal) := by
  rw [ofBits_inf] at h
  unfold Ideal.cmp at h
  simp only [ofBool_eq_one, decide_eq_true_eq] at h
  induction x using EReal.rec with
  | bot => simp at h
  | coe r => exact ⟨r, rfl⟩
  | top => simp at h

/-- Under the precondition every entry of x and every entry of y is a real number. -/
theorem finite_of_pre (m : (ℓ : Loc nD τ sig) → Buf (Elt Ideal) ℓ) (hpre : Cert.Pre_KernelIdeal m) (c : Dev nD) :
    (∀ i : S8x4096x3.Idx, ∃ r : ℝ, (m ((c.tc : Thread nD τ).loc main_arg0) : S8x4096x3.Idx → EReal) i = (r : EReal))
    ∧ (∀ i : S8x4096x3.Idx, ∃ r : ℝ, (m ((c.tc : Thread nD τ).loc main_arg1) : S8x4096x3.Idx → EReal) i = (r : EReal)) := by
  have e := congrFun (hpre c) ix0
  unfold Cert.Pre_finite_inputs.fn Cert.Pre_finite_inputs.fn_part1 at e
  simp only [andi, and1] at e
  obtain ⟨⟨⟨e0, e1⟩, -⟩, -⟩ := e
  exact ⟨fun i => real_of_abs_lt _ (Host.reduce_andi_all _ _ _ _ _ e0 i),
    fun i => real_of_abs_lt _ (Host.reduce_andi_all _ _ _ _ _ e1 i)⟩

end Cert.KernelIdeal.Chamfer

end
-- ==== Proof.Bridge.lean ====
/-
  The bridge. The kernel finds x where the launch left it and y through one host transpose ([8, 4096, 3] to [8, 3, 4096]),
  so kd b i j is the squared distance of x[b, i, ·] and y[b, j, ·] with the factor −2 distributed; the reference's table
  has the cross term subtracted whole. Every coordinate being a real number (the precondition), the two are one real,
  so the least over the x index and the least over the y index agree entry by entry, and with them the two programs'
  results, which apply the same last lines to those minima and to the same masks.
-/
import proofs.«117250_j66623532696128_2_alg».proof.Proof.Run
import proofs.«117250_j66623532696128_2_alg».proof.Proof.RefValue
import proofs.«117250_j66623532696128_2_alg».proof.Proof.Finite

noncomputable section

open Idealize.ShloMosaic Idealize.ShloMosaic.TcCoe Idealize.SL.Sem Idealize.ShloMosaic.ValueIdx

namespace Cert.KernelIdeal.Chamfer

open Cert.KernelIdeal Cert.KernelIdeal.Gen Cert.Chamfer

variable (m : (ℓ : Loc nD τ sig) → Buf (Elt Ideal) ℓ) (c : Dev nD)

/-- The one host line before the region: the region finds y transposed. -/
theorem V_main_v0 : (V m c main_v0 : S8x3x4096.Idx → EReal)
    = transpose S8x3x4096 [0, 2, 1] (m ((c.tc : Thread nD τ).loc main_arg1)) transposes_S8x4096x3_S8x3x4096_0_2_1 := by
  show StableHlo.after hostOps0 (fun b => m (c, b)) (Proc.devRef .tc main_v0) = _
  after_results

/-- For real coordinates the kernel's squared distance is the reference's table entry. -/
theorem kd_eq
    (hf0 : ∀ i : S8x4096x3.Idx, ∃ r : ℝ, ((m ((c.tc : Thread nD τ).loc main_arg0)) : S8x4096x3.Idx → EReal) i = (r : EReal))
    (hf1 : ∀ i : S8x4096x3.Idx, ∃ r : ℝ, ((m ((c.tc : Thread nD τ).loc main_arg1)) : S8x4096x3.Idx → EReal) i = (r : EReal))
    (b : Fin 8) (i j : Fin 4096) :
    kd m c b.val i.val j.val
      = distSub (Ideal.ofBits .f32 0x00000000#32) (Ideal.ofBits .f32 0x40000000#32)
          (fun d => ((m ((c.tc : Thread nD τ).loc main_arg0)) : S8x4096x3.Idx → EReal) (ix3 b i d))
          (fun d => ((m ((c.tc : Thread nD τ).loc main_arg1)) : S8x4096x3.Idx → EReal) (ix3 b j d)) := by
  have hx : ∀ d : Fin 3, xN m c b.val i.val d.val = ((m ((c.tc : Thread nD τ).loc main_arg0)) : S8x4096x3.Idx → EReal) (ix3 b i d) := fun d => by
    unfold xN
    rw [dif_pos ⟨b.isLt, i.isLt, d.isLt⟩]
    exact congrFun (V_main_arg0 m c) (ix3 b i d)
  have hy : ∀ d : Fin 3, yN m c b.val d.val j.val = ((m ((c.tc : Thread nD τ).loc main_arg1)) : S8x4096x3.Idx → EReal) (ix3 b j d) := fun d => by
    unfold yN
    rw [dif_pos ⟨b.isLt, d.isLt, j.isLt⟩]
    refine (congrFun (V_main_v0 m c) (ix3 b d j)).trans ?_
    exact transpose_apply [0, 2, 1] _ transposes_S8x4096x3_S8x3x4096_0_2_1 (ix3 b d j) (ix3 b j d)
      (fun a => match a with | ⟨0, _⟩ => rfl | ⟨1, _⟩ => rfl | ⟨2, _⟩ => rfl)
  choose u hu using fun d : Fin 3 => hf0 (ix3 b i d)
  choose v hv using fun d : Fin 3 => hf1 (ix3 b j d)
  unfold kd
  simp only [hx, hy, hu, hv, ofBits_neg_two, ofBits_zero, ofBits_two]
  exact (distSub_eq_distAdd u v).symm

/-- The kernel's column minima, re-laid to [8, 4096], are the reference's minima over the x index. -/
theorem col_bridge (hpre : Cert.Pre_KernelIdeal m) :
    shapeCast S8x4096 (colMin m c) shapeCasts_S8x1x4096_S8x4096
      = Cert.ReferenceIdeal.Read.val_main_v13 (F := Ideal) (m ((c.tc : Thread nD τ).loc main_arg0)) (m ((c.tc : Thread nD τ).loc main_arg1)) := by
  obtain ⟨hf0, hf1⟩ := finite_of_pre m hpre c
  funext idx
  obtain ⟨b, j, rfl⟩ : ∃ (b : Fin 8) (j : Fin 4096), idx = ix2 b j := ⟨idx 0, idx 1, eq_ix2 idx⟩
  refine Eq.trans ?_ (Cert.ReferenceIdeal.RefValue.colRef_apply _ _ b j).symm
  refine (shapeCast_apply (colMin m c) shapeCasts_S8x1x4096_S8x4096 (ix2 b j) (ix3 b (0 : Fin 1) j) (by
    rw [Shape.rowMajor_val_three, Shape.rowMajor_val_two]
    show (b.val * 1 + 0) * 4096 + j.val = b.val * 4096 + j.val
    omega)).trans ?_
  unfold colMin
  show minAll (colF m c b.val j.val) = _
  refine minAll_congr fun i => ?_
  rw [Cert.ReferenceIdeal.RefValue.pair_apply]
  exact kd_eq m c hf0 hf1 b i j

/-- The kernel's row minima, re-laid to [8, 4096], are the reference's minima over the y index. -/
theorem row_bridge (hpre : Cert.Pre_KernelIdeal m) :
    shapeCast S8x4096 (rowMin m c) shapeCasts_S8x1x4096_S8x4096
      = Cert.ReferenceIdeal.Read.val_main_v17 (F := Ideal) (m ((c.tc : Thread nD τ).loc main_arg0)) (m ((c.tc : Thread nD τ).loc main_arg1)) := by
  obtain ⟨hf0, hf1⟩ := finite_of_pre m hpre c
  funext idx
  obtain ⟨b, i, rfl⟩ : ∃ (b : Fin 8) (i : Fin 4096), idx = ix2 b i := ⟨idx 0, idx 1, eq_ix2 idx⟩
  refine Eq.trans ?_ (Cert.ReferenceIdeal.RefValue.rowRef_apply _ _ b i).symm
  refine (shapeCast_apply (rowMin m c) shapeCasts_S8x1x4096_S8x4096 (ix2 b i) (ix3 b (0 : Fin 1) i) (by
    rw [Shape.rowMajor_val_three, Shape.rowMajor_val_two]
    show (b.val * 1 + 0) * 4096 + i.val = b.val * 4096 + i.val
    omega)).trans ?_
  unfold rowMin
  show minAll (rowF m c b.val i.val) = _
  refine minAll_congr fun j => ?_
  rw [Cert.ReferenceIdeal.RefValue.pair_apply]
  exact kd_eq m c hf0 hf1 b i j

/-- The kernel's result is the reference's term of the same arguments. -/
theorem result_eq (hpre : Cert.Pre_KernelIdeal m) :
    result m c = Cert.ReferenceIdeal.Read.val_main_v22 (F := Ideal) (m ((c.tc : Thread nD τ).loc main_arg0)) (m ((c.tc : Thread nD τ).loc main_arg1)) (m ((c.tc : Thread nD τ).loc main_arg2)) (m ((c.tc : Thread nD τ).loc main_arg3)) := by
  unfold result
  rw [col_bridge m c hpre, row_bridge m c hpre]
  rfl

end Cert.KernelIdeal.Chamfer

end
-- ==== Proof.lean ====
/-
  The certificate's five claims. The three programs run without fault and leave their arguments as they found them
  (the kernel's two frames are the generated ones; the reference's is its generated run with the result dropped); the
  idealization rewrote nothing; and, at the ideal instance, from memories that agree on the four arguments, the kernel's
  program and the reference both end with the same scalar: (mean(x_mask · min over x) − mean(y_mask · min over y))² of
  the pairwise squared distances, which the kernel accumulates tile by tile over a (batch, row block, column block)
  grid and the reference reduces from one whole table.
-/
import proofs.«117250_j66623532696128_2_alg».proof.Defs
import proofs.«117250_j66623532696128_2_alg».proof.Proof.Gen.Kernel
import proofs.«117250_j66623532696128_2_alg».proof.Proof.Gen.Kernel.Skeleton
import proofs.«117250_j66623532696128_2_alg».proof.Proof.Gen.Kernel.Launch
import proofs.«117250_j66623532696128_2_alg».proof.Proof.Gen.Kernel.Points
import proofs.«117250_j66623532696128_2_alg».proof.Proof.Gen.Kernel.Frame
import proofs.«117250_j66623532696128_2_alg».proof.Proof.Gen.KernelIdeal
import proofs.«117250_j66623532696128_2_alg».proof.Proof.Gen.KernelIdeal.Skeleton
import proofs.«117250_j66623532696128_2_alg».proof.Proof.Gen.KernelIdeal.Launch
import proofs.«117250_j66623532696128_2_alg».proof.Proof.Gen.KernelIdeal.Points
import proofs.«117250_j66623532696128_2_alg».proof.Proof.Gen.KernelIdeal.Frame
import proofs.«117250_j66623532696128_2_alg».proof.Proof.Gen.ReferenceIdeal
import proofs.«117250_j66623532696128_2_alg».proof.Proof.Gen.ReferenceIdeal.Run
import proofs.«117250_j66623532696128_2_alg».proof.Proof.Gen.ReferenceIdeal.Read
import proofs.«117250_j66623532696128_2_alg».proof.Proof.Gen.Pre_finite_inputs
import proofs.«117250_j66623532696128_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at one scalar: the kernel's result (its run, read) is the reference's term (its run) of
    arguments that agree. -/
theorem algebraic : Cert.algebraic_KernelIdeal_ReferenceIdeal := by
  intro m ρ m' ρ' hpre hagree
  refine ⟨fun c => Cert.KernelIdeal.Chamfer.result m c, Cert.KernelIdeal.Chamfer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  exact (Cert.KernelIdeal.Chamfer.result_eq m c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
